-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S2048x512 : Shape := ⟨2, ![2048, 512]⟩
abbrev S1024x512 : Shape := ⟨2, ![1024, 512]⟩
abbrev S2048x1024 : Shape := ⟨2, ![2048, 1024]⟩
abbrev S_ : Shape := ⟨0, ![]⟩
abbrev S1x4096 : Shape := ⟨2, ![1, 4096]⟩
abbrev S256x4096 : Shape := ⟨2, ![256, 4096]⟩
abbrev S512x4096 : Shape := ⟨2, ![512, 4096]⟩
abbrev S256x512 : Shape := ⟨2, ![256, 512]⟩
abbrev S1x512 : Shape := ⟨2, ![1, 512]⟩

abbrev nBuf : Space → Nat
  | .hbm => 19
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S8192x4096, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S1x4096, .f32⟩
  | .hbm, ⟨18, _⟩ => ⟨S4096x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S256x4096, .bf16⟩
  | .local _ .vmem, ⟨7, _⟩ => ⟨S256x4096, .bf16⟩
  | .local _ .vmem, ⟨8, _⟩ => ⟨S512x4096, .f32⟩
  | .local _ .vmem, ⟨9, _⟩ => ⟨S256x512, .f32⟩
  | .local _ .vmem, ⟨10, _⟩ => ⟨S256x512, .f32⟩
  | .local _ .vmem, ⟨11, _⟩ => ⟨S1x512, .f32⟩
  | .local _ .vmem, ⟨12, _⟩ => ⟨S1x512, .f32⟩
  | .local _ .vmem, ⟨13, _⟩ => ⟨S512x4096, .f32⟩
  | .local _ .vmem, ⟨14, _⟩ => ⟨S512x4096, .f32⟩
  | .local _ .vmem, ⟨15, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![8, 32], ![false, false]⟩

def k1_cond2 (i : grid1.Coords) : BitVec 1 :=
  let arg1 : BitVec 32 := BitVec.ofNat 32 (i 1).val
  let c31_i32 : BitVec 32 := 31#32
  let v20 : BitVec 1 := Scalar.cmpi .eq arg1 c31_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S512x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reducesTo_S8192x4096_S4096_d0 : S8192x4096.ReducesTo [0] S4096
  h_S_ : 0 < S_.numel
  bcast_S_S4096 : S_.BroadcastsInDim S4096 (![] : Fin 0 → Fin S4096.rank)
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  dot_S2048x512_S1024x512_S2048x1024_1_1_0_0_n_n_wf : DotDims.WF S2048x512 S1024x512 S2048x1024 [1] [1] [0] [0] [] []
  dot_S256x512_S256x4096_S512x4096_0_0_1_1_n_n_wf : DotDims.WF S256x512 S256x4096 S512x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .bf16 = 32 ∨ (Rect.block (s := S8192x4096) S256x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S8192x4096.size a
  hwx1_2 : ∀ i : grid1.Coords, EltTy.bits .f32 = 32 ∨ (Rect.block (s := S8192x4096) S256x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S4096x4096.size a
  hwx1_4 : ∀ i : grid1.Coords, EltTy.bits .f32 = 32 ∨ (Rect.block (s := S4096x4096) S512x4096.size (cc1_transform_4 i) (hinb1_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S256x512_S256x4096_S512x4096_0_0_1_1_n_n : DotDims S256x512 S256x4096 S512x4096 where
  lhsContracting := [0]
  rhsContracting := [0]
  lhsNonContracting := [1]
  rhsNonContracting := [1]
  lhsBatch := []
  rhsBatch := []
  wf := dot_S256x512_S256x4096_S512x4096_0_0_1_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S512x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S4096x4096_S4096x4096_1_0 : S4096x4096.Transposes [1, 0] S4096x4096
  reducesTo_S8192x4096_S4096_d0 : S8192x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []
  dot_S8192x4096_S8192x4096_S4096x4096_0_0_1_1_n_n_wf : DotDims.WF S8192x4096 S8192x4096 S4096x4096 [0] [0] [1] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S8192x4096_S4096x4096_0_0_1_1_n_n : DotDims S8192x4096 S8192x4096 S4096x4096 where
  lhsContracting := [0]
  rhsContracting := [0]
  lhsNonContracting := [1]
  rhsNonContracting := [1]
  lhsBatch := []
  rhsBatch := []
  wf := dot_S8192x4096_S8192x4096_S4096x4096_0_0_1_1_n_n_wf

class Facts : Prop extends Facts₀ where

variable [Facts]
-- ==== Proof.KernelOutBody.lean ====
import proofs.«124577_j81003083202674_2_alg».proof.Proof.Gen.Kernel.Launch
import proofs.«124577_j81003083202674_2_alg».proof.Proof.Gen.Kernel.Skeleton
import proofs.«124577_j81003083202674_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.OutBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region: `out = x · wᵀ`, accumulated in its output block over the eight slices of the contracted axis

The grid is 4 × 4 × 8; the last coordinate walks the contracted axis in slices of 512. At a point whose last coordinate is
zero the body zeroes its output block and adds the slice's product to it; at every other point it adds the slice's product to
what the point before left in the same block (the block index does not depend on the last coordinate, and the block is
written back only after the eighth slice). Everything here is stated at a parameter `V`, the buffers as the region finds them. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The reset condition -/

/-- "The slice is the first one", as the body computes it from the grid coordinates. -/
abbrev cond0 (i : grid0.Coords) : Prop := (Scalar.cmpi .ne (Scalar.extui (Scalar.cmpi .eq (BitVec.ofNat 32 (i 2).val) 0#32)) 0#32) = 1#1
/-- It holds exactly at the points whose number is a multiple of eight (the last coordinate is the number modulo 8). -/
theorem hcond0 : ∀ t : Fin cfg0.N, cond0 (grid0.coords t) ↔ t.val % 8 = 0 :=
  (by decide +kernel : ∀ t : Fin grid0.N, cond0 (grid0.coords t) ↔ t.val % 8 = 0)

/-! ## The body's two runs -/

/-- The zero offsets of the one rectangle the body loads and stores through. -/
theorem hz2 : (![0, 0] : Fin 2 → Nat) = fun _ => 0 := by funext a; fin_cases a <;> rfl

set_option maxHeartbeats 1000000 in
/-- At a first slice: whatever the output block held, the body leaves in it the product of the two slices added to the zero block. -/
theorem sound_reset (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole)
    (hc : cond0 i) (x0 : Vec F S2048x512 .bf16) (x1 : Vec F S1024x512 .bf16) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (k0_pay2 (k0_pay1 (F := F)) x0 x1)) -∗ K ⟨⟩))
      ⊢ wp frame (wpE (defs₀ (F := F)) Variants.none c none) E (cc0_kernel i arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, Hk⟩
  obtain rfl := harg3.eq_unread hf0; obtain rfl := harg4.eq_unread hf1
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  sl_unfold_words
  rw [View.read_writes_eq_canon _ _ _ (fun y => ⟨_, List.mem_cons_self, View.mem_set_unit_zero hz2 Facts₀.inb_S2048x1024_S2048x1024_0_0 y⟩), View.canon_cons_unit_zero hz2]
  simp only [View.readCov_unit_zero (S := S2048x1024) arg5.view hz2, View.readAt_eq_ld, harg3.read_unread, harg4.read_unread, View.ld_unit_zero (S := S2048x512) hz2, View.ld_unit_zero (S := S1024x512) hz2]

set_option maxHeartbeats 1000000 in
/-- At a later slice: the output block holding `xo`, the body leaves in it the product of the two slices added to `xo`. -/
theorem sound_add (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole)
    (hc : ¬cond0 i) (x0 : Vec F S2048x512 .bf16) (x1 : Vec F S1024x512 .bf16) (xo : Vec F S2048x1024 .f32) (E : Set ℕ) (K : PUnit → sProp 𝕄) :
    iprop(owns (c : Thread nD τ) arg3 fullShare x0 ∗ owns (c : Thread nD τ) arg4 fullShare x1 ∗ owns (c : Thread nD τ) arg5 fullShare xo
        ∗ (iprop(owns (c : Thread nD τ) arg3 fullShare x0 ∗ owns (c : Thread nD τ) arg4 fullShare x1
            ∗ owns (c : Thread nD τ) arg5 fullShare (k0_pay2 xo x0 x1)) -∗ K ⟨⟩))
      ⊢ wp frame (wpE (defs₀ (F := F)) Variants.none c none) E (cc0_kernel i arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  rw [View.read_writes_eq_canon _ _ _ (fun y => ⟨_, List.mem_singleton_self _, View.mem_set_unit_zero hz2 Facts₀.inb_S2048x1024_S2048x1024_0_0 y⟩), View.canon_unit_zero hz2]
  simp only [View.readAt_eq_ld, harg3.read_unread, harg4.read_unread, harg5.read_unread, View.ld_unit_zero (S := S2048x1024) hz2, View.ld_unit_zero (S := S2048x512) hz2, View.ld_unit_zero (S := S1024x512) hz2]

/-! ## What the output block holds after each point -/

section
variable (V : (c : Dev nD) → (b : Ref sig .tc) → Buf (Elt F) ((c : Thread nD τ).loc b))

/-- THE ACCUMULATION. The output block after the body at position `n`: at a first slice the slice's product added to
    the zero block, at a later slice the slice's product added to what position `n - 1` left. -/
def accAt0 (c : Dev nD) : (n : ℕ) → n < cfg0.N → Vec F S2048x1024 .f32
  | 0, hn => k0_pay2 (k0_pay1 (F := F)) (iblk0 V c 0 ⟨0, hn⟩) (iblk0 V c 1 ⟨0, hn⟩)
  | n + 1, hn =>
    if (n + 1) % 8 = 0 then k0_pay2 (k0_pay1 (F := F)) (iblk0 V c 0 ⟨n + 1, hn⟩) (iblk0 V c 1 ⟨n + 1, hn⟩)
    else k0_pay2 (accAt0 c n (Nat.lt_of_succ_lt hn)) (iblk0 V c 0 ⟨n + 1, hn⟩) (iblk0 V c 1 ⟨n + 1, hn⟩)

theorem accAt0_reset (c : Dev nD) (t : Fin cfg0.N) (h0 : t.val % 8 = 0) :
    accAt0 V c t.val t.isLt = k0_pay2 (k0_pay1 (F := F)) (iblk0 V c 0 t) (iblk0 V c 1 t) := by
  obtain ⟨n, hn⟩ := t
  cases n with
  | zero => rfl
  | succ n => exact (if_pos h0).trans rfl

theorem accAt0_add (c : Dev nD) (t : Fin cfg0.N) (h0 : ¬t.val % 8 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact (if_neg h0).trans rfl

/-! ## The region's proof data -/

/-- The arrays as the region finds them; after the body at a point each factor's buffer at its block and the output's at
    the accumulation; the invariant says nothing beyond the buffers the body never touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later slice the output's staging buffer holds what the body left at the point before: the point is not the first,
    and the block is written back only after an eighth slice, which the point before is not. -/
theorem before0_2_add (c : Dev nD) (t : Fin cfg0.N) (h0 : ¬t.val % 8 = 0) (d) :
    (dat0 V c).before 2 t d = accAt0 V c (t.val - 1) (Nat.lt_of_le_of_lt (Nat.sub_le _ _) t.isLt) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the factors' buffers hold their blocks; the point's number modulo eight says which run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · rw [accAt0_reset V c t h0]
    iintro ⟨HΦ, Ho, ⟨%d0, H0⟩, ⟨%d1, H1⟩, ⟨%d2, H2⟩⟩
    iapply (sound_reset c (grid0.coords t) _ _ _ _ _ _ ((hcond0 t).mpr h0) (iblk0 V c 0 t) (iblk0 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt0_add V c t h0]
    simp only [before0_2_add V c t h0]
    iintro ⟨HΦ, Ho, ⟨%d0, H0⟩, ⟨%d1, H1⟩, ⟨%d2, H2⟩⟩
    iapply (sound_add c (grid0.coords t) _ _ _ _ _ _ (fun h => h0 ((hcond0 t).mp h)) (iblk0 V c 0 t) (iblk0 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem body_obligation0 (c : Dev nD) : BodyObligation (dat0 (F := F) V c) (defs₀ (F := F)) Variants.none () Set.univ := fun t => by
  rw [bigSep_W0, bigSep_W0]
  exact sound_body0 V c t

end

end Cert.Kernel.OutBody

end
-- ==== Proof.KernelUpdBody.lean ====
import proofs.«124577_j81003083202674_2_alg».proof.Proof.Gen.Kernel.Launch
import proofs.«124577_j81003083202674_2_alg».proof.Proof.Gen.Kernel.Skeleton
import proofs.«124577_j81003083202674_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.UpdBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: the weight update, its sum over the batch carried in a scratch block

The grid is 8 × 32; the second coordinate walks the batch in tiles of 256 rows. At every point the body forms the tile's
rectified activity `max(out − threshold, 0)`, contracts it with the tile of `x` over the tile's rows and adds the product to
the scratch block — zeroed first at the first tile. At the last tile it stores `weight + rate · scratch` into the output
block; at every other point the output block is not touched and not written back. Everything is stated at a parameter `V`. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, its block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (unfetched, its block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (unfetched, its block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions -/

/-- "The tile is the first one", as the body computes it from the grid coordinates. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 32 = 0 :=
  (by decide +kernel : ∀ t : Fin grid1.N, condFirst (grid1.coords t) ↔ t.val % 32 = 0)
/-- "The tile is the last one". -/
abbrev condLast (i : grid1.Coords) : Prop := k1_cond2 i = 1#1
theorem hcondLast : ∀ t : Fin cfg1.N, condLast (grid1.coords t) ↔ t.val % 32 = 31 :=
  (by decide +kernel : ∀ t : Fin grid1.N, condLast (grid1.coords t) ↔ t.val % 32 = 31)

/-- The output window is never idle where the last tile's store happens, idle and not written back elsewhere. -/
theorem idleAt_notLast : ∀ t : Fin cfg1.N, ¬condLast (grid1.coords t) → cfg1.idle 4 (grid1.coords t) = true := by decide +kernel
theorem noFlush_notLast : ∀ t : Fin cfg1.N, ¬condLast (grid1.coords t) → (cfg1.win 4).flush t = false := by decide +kernel
theorem liveAt_last : ∀ t : Fin cfg1.N, condLast (grid1.coords t) → cfg1.idle 4 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The body's three runs -/

theorem hz2 : (![0, 0] : Fin 2 → Nat) = fun _ => 0 := by funext a; fin_cases a <;> rfl

/-- The scratch operand: a whole buffer of the kernel's own, passed beside the windows. -/
abbrev scM : Memref sig .tc .vmem S512x4096 .f32 := Memref.whole cc1_scratch0

set_option maxHeartbeats 2000000 in
/-- At a first tile (not the last): whatever the scratch held, the body leaves in it the tile's product added to the zero
    block; the output block is handed back untouched. -/
theorem sound_first (c : Dev nD) (i : grid1.Coords) (arg2 : Memref sig .tc .vmem S256x4096 .bf16) (harg2 : arg2.IsWhole) (arg3 : Memref sig .tc .vmem S512x4096 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x4096 .f32) (harg6 : arg6.IsWhole) (arg7 : Memref sig .tc .vmem S512x4096 .f32) (harg7 : arg7.IsWhole)
    (hc1 : condFirst i) (hc2 : ¬condLast i) (x0 : Vec F S256x4096 .bf16) (x1 : Vec F S512x4096 .f32) (x2 : Vec F S256x512 .f32) (x3 : Vec F S1x512 .f32) (xi : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k1_pay2 x2 x3 x0 (k1_pay1 (F := F)))) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro
  sl_unfold_words
  rw [View.read_writes_eq_canon _ _ _ (fun y => ⟨_, List.mem_cons_self, View.mem_set_unit_zero hz2 Facts₀.inb_S512x4096_S512x4096_0_0 y⟩), View.canon_cons_unit_zero hz2]
  simp only [View.readCov_unit_zero (S := S512x4096) arg7.view hz2, View.readAt_eq_ld, harg2.read_unread, harg3.read_unread, harg4.read_unread, harg5.read_unread, harg7.read_unread, View.ld_unit_zero (S := S256x512) hz2, View.ld_unit_zero (S := S1x512) hz2, View.ld_unit_zero (S := S256x4096) hz2, View.ld_unit_zero (S := S512x4096) hz2]

set_option maxHeartbeats 2000000 in
/-- At a middle tile: the scratch holding `xs`, the body leaves in it the tile's product added to `xs`; the output block is
    handed back untouched. -/
theorem sound_middle (c : Dev nD) (i : grid1.Coords) (arg2 : Memref sig .tc .vmem S256x4096 .bf16) (harg2 : arg2.IsWhole) (arg3 : Memref sig .tc .vmem S512x4096 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x4096 .f32) (harg6 : arg6.IsWhole) (arg7 : Memref sig .tc .vmem S512x4096 .f32) (harg7 : arg7.IsWhole)
    (hc1 : ¬condFirst i) (hc2 : ¬condLast i) (x0 : Vec F S256x4096 .bf16) (x1 : Vec F S512x4096 .f32) (x2 : Vec F S256x512 .f32) (x3 : Vec F S1x512 .f32) (xi : Vec F S512x4096 .f32) (xs : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k1_pay2 x2 x3 x0 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro
  rw [View.read_writes_eq_canon _ _ _ (fun y => ⟨_, List.mem_singleton_self _, View.mem_set_unit_zero hz2 Facts₀.inb_S512x4096_S512x4096_0_0 y⟩), View.canon_unit_zero hz2]
  simp only [View.readAt_eq_ld, harg2.read_unread, harg3.read_unread, harg4.read_unread, harg5.read_unread, harg7.read_unread, View.ld_unit_zero (S := S256x512) hz2, View.ld_unit_zero (S := S1x512) hz2, View.ld_unit_zero (S := S256x4096) hz2, View.ld_unit_zero (S := S512x4096) hz2]

set_option maxHeartbeats 2000000 in
/-- At a last tile: the scratch holding `xs`, the body leaves in it `s' =` the tile's product added to `xs`, and in the
    output block, whatever it held, `weight + rate · s'`. -/
theorem sound_last (c : Dev nD) (i : grid1.Coords) (arg2 : Memref sig .tc .vmem S256x4096 .bf16) (harg2 : arg2.IsWhole) (arg3 : Memref sig .tc .vmem S512x4096 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x4096 .f32) (harg6 : arg6.IsWhole) (arg7 : Memref sig .tc .vmem S512x4096 .f32) (harg7 : arg7.IsWhole)
    (hc1 : ¬condFirst i) (hc2 : condLast i) (x0 : Vec F S256x4096 .bf16) (x1 : Vec F S512x4096 .f32) (x2 : Vec F S256x512 .f32) (x3 : Vec F S1x512 .f32) (xs : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay3 x1 (k1_pay2 x2 x3 x0 xs)) ∗ owns (c : Thread nD τ) arg7 fullShare (k1_pay2 x2 x3 x0 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3; obtain rfl := harg7.eq_unread hf5
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_singleton_self _, View.mem_set_unit_zero hz2 Facts₀.inb_S512x4096_S512x4096_0_0 y⟩), View.canon_unit_zero hz2]
    simp only [View.readAt_eq_ld, harg2.read_unread, harg3.read_unread, harg4.read_unread, harg5.read_unread, harg7.read_unread, View.ld_unit_zero (S := S256x512) hz2, View.ld_unit_zero (S := S1x512) hz2, View.ld_unit_zero (S := S256x4096) hz2, View.ld_unit_zero (S := S512x4096) hz2, View.readCov_unit_zero (S := S512x4096) arg7.view hz2]
  iexists _; isplitr
  swap; · iexact H5
  ipureintro
  sl_unfold_words
  rw [View.read_writes_eq_canon _ _ _ (fun y => ⟨_, List.mem_singleton_self _, View.mem_set_unit_zero hz2 Facts₀.inb_S512x4096_S512x4096_0_0 y⟩), View.canon_unit_zero hz2]
  simp only [View.readAt_eq_ld, harg2.read_unread, harg3.read_unread, harg4.read_unread, harg5.read_unread, harg7.read_unread, View.ld_unit_zero (S := S256x512) hz2, View.ld_unit_zero (S := S1x512) hz2, View.ld_unit_zero (S := S256x4096) hz2, View.ld_unit_zero (S := S512x4096) hz2]

/-! ## What the scratch and the output block hold after each point -/

section
variable (V : (c : Dev nD) → (b : Ref sig .tc) → Buf (Elt F) ((c : Thread nD τ).loc b))

/-- THE ACCUMULATION. The scratch block after the body at position `n`: at a first tile the tile's product added to the
    zero block, at a later tile the tile's product added to what position `n - 1` left. -/
def accAt1 (c : Dev nD) : (n : ℕ) → n < cfg1.N → Vec F S512x4096 .f32
  | 0, hn => k1_pay2 (iblk1 V c 2 ⟨0, hn⟩) (iblk1 V c 3 ⟨0, hn⟩) (iblk1 V c 0 ⟨0, hn⟩) (k1_pay1 (F := F))
  | n + 1, hn =>
    if (n + 1) % 32 = 0 then k1_pay2 (iblk1 V c 2 ⟨n + 1, hn⟩) (iblk1 V c 3 ⟨n + 1, hn⟩) (iblk1 V c 0 ⟨n + 1, hn⟩) (k1_pay1 (F := F))
    else k1_pay2 (iblk1 V c 2 ⟨n + 1, hn⟩) (iblk1 V c 3 ⟨n + 1, hn⟩) (iblk1 V c 0 ⟨n + 1, hn⟩) (accAt1 c n (Nat.lt_of_succ_lt hn))

theorem accAt1_first (c : Dev nD) (t : Fin cfg1.N) (h0 : t.val % 32 = 0) :
    accAt1 V c t.val t.isLt = k1_pay2 (iblk1 V c 2 t) (iblk1 V c 3 t) (iblk1 V c 0 t) (k1_pay1 (F := F)) := by
  obtain ⟨n, hn⟩ := t
  cases n with
  | zero => rfl
  | succ n => exact (if_pos h0).trans rfl

theorem accAt1_later (c : Dev nD) (t : Fin cfg1.N) (h0 : ¬t.val % 32 = 0) :
    accAt1 V c t.val t.isLt = k1_pay2 (iblk1 V c 2 t) (iblk1 V c 3 t) (iblk1 V c 0 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The output block as the last tile's store leaves it (at the other points the window is idle and this is not consulted). -/
def outAt1 (c : Dev nD) (t : Fin cfg1.N) : Vec F S512x4096 .f32 := k1_pay3 (iblk1 V c 1 t) (accAt1 V c t.val t.isLt)

/-! ## The region invariant: the scratch carried between points -/

/-- The core's scoped buffers that are neither a staging buffer of this region nor its scratch, each at some contents,
    beside a statement `S` about the scratch. -/
abbrev restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- What a body of this region may use and need not describe, with the scratch as a memref owned at some contents. -/
theorem PhiA1_eq (c : Dev nD) :
    (Pipeline.ΦA spec1 c : sProp 𝕄) = iprop(restWith c iprop(∃ d, owns (c : Thread nD τ) scM fullShare d) ∗ (∃ r, prngReg c r)) := by
  unfold Pipeline.ΦA; rw [scopedRest1_eq]; simp only [scM, owns_whole]; try rfl

/-- Before position `n`: before the first point the scratch is at anything; afterwards at what the point before left in it. -/
def PhiS (c : Dev nD) : (n : ℕ) → n ≤ cfg1.N → sProp 𝕄
  | 0, _ => Pipeline.ΦA spec1 c
  | n + 1, hn => iprop(restWith c (owns (c : Thread nD τ) scM fullShare (accAt1 V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c (owns (c : Thread nD τ) scM fullShare (accAt1 V c n hn)) ∗ (∃ r, prngReg c r)) := rfl
theorem PhiS_pos (c : Dev nD) (n : ℕ) (h : n ≤ cfg1.N) (hz : n ≠ 0) :
    PhiS V c n h = iprop(restWith c (owns (c : Thread nD τ) scM fullShare (accAt1 V c (n - 1) (by omega))) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the point's number modulo 32 says which run applies; the
    invariant hands the body the scratch at what the point before left (at anything at a first tile) and takes it back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h1 : t.val % 32 = 31
  · have h0 : ¬t.val % 32 = 0 := by omega
    have hz : t.val ≠ 0 := fun e => by rw [e] at h1; omega
    rw [show (dat1 V c).leavesExact 4 t = owns (c : Thread nD τ) (st1_4 t) fullShare ((dat1 V c).after 4 t) from by
      unfold Dat.leavesExact; rw [liveAt_last t ((hcondLast t).mpr h1)], after1_4]
    unfold outAt1
    rw [accAt1_later V c t h0, PhiS_castSucc V c t, PhiS_pos V c _ _ hz]
    iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
    iapply (sound_last c (grid1.coords t) _ _ _ _ _ _ _ _ _ _ _ _ (fun h => h0 ((hcondFirst t).mp h)) ((hcondLast t).mpr h1)
      (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HA1 HA2 HA3 HA4 HA5 HA6 HS Hg]
    · isplitl [HA1 HA2 HA3 HA4 HA5 HA6 HS]
      · isplitl [HA1]; · iexact HA1
        isplitl [HA2]; · iexact HA2
        isplitl [HA3]; · iexact HA3
        isplitl [HA4]; · iexact HA4
        isplitl [HA5]; · iexact HA5
        isplitl [HA6]; · iexact HA6
        iexact HS
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt_notLast t (fun h => h1 ((hcondLast t).mp h))) (noFlush_notLast t (fun h => h1 ((hcondLast t).mp h)))]
    by_cases h0 : t.val % 32 = 0
    · rw [accAt1_first V c t h0]
      by_cases hz : t.val = 0
      · rw [PhiS_castSucc V c t, PhiS_zero V c _ _ hz, PhiA1_eq]
        iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
        iapply (sound_first c (grid1.coords t) _ _ _ _ _ _ _ _ _ _ _ _ ((hcondFirst t).mpr h0) (fun h => h1 ((hcondLast t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HA1 HA2 HA3 HA4 HA5 HA6 HS Hg]
        · isplitl [HA1 HA2 HA3 HA4 HA5 HA6 HS]
          · isplitl [HA1]; · iexact HA1
            isplitl [HA2]; · iexact HA2
            isplitl [HA3]; · iexact HA3
            isplitl [HA4]; · iexact HA4
            isplitl [HA5]; · iexact HA5
            isplitl [HA6]; · iexact HA6
            iexact HS
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
        iapply (sound_first c (grid1.coords t) _ _ _ _ _ _ _ _ _ _ _ _ ((hcondFirst t).mpr h0) (fun h => h1 ((hcondLast t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, HS⟩
        isplitl [HA1 HA2 HA3 HA4 HA5 HA6 HS Hg]
        · isplitl [HA1 HA2 HA3 HA4 HA5 HA6 HS]
          · isplitl [HA1]; · iexact HA1
            isplitl [HA2]; · iexact HA2
            isplitl [HA3]; · iexact HA3
            isplitl [HA4]; · iexact HA4
            isplitl [HA5]; · iexact HA5
            isplitl [HA6]; · iexact HA6
            iexact HS
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun e => h0 (by rw [e])
      rw [accAt1_later V c t h0, PhiS_castSucc V c t, PhiS_pos V c _ _ hz]
      iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
      iapply (sound_middle c (grid1.coords t) _ _ _ _ _ _ _ _ _ _ _ _ (fun h => h0 ((hcondFirst t).mp h)) (fun h => h1 ((hcondLast t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HA1 HA2 HA3 HA4 HA5 HA6 HS Hg]
      · isplitl [HA1 HA2 HA3 HA4 HA5 HA6 HS]
        · isplitl [HA1]; · iexact HA1
          isplitl [HA2]; · iexact HA2
          isplitl [HA3]; · iexact HA3
          isplitl [HA4]; · iexact HA4
          isplitl [HA5]; · iexact HA5
          isplitl [HA6]; · iexact HA6
          iexact HS
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  iintro ⟨⟨HA1, HA2, HA3, HA4, HA5, HA6, HS⟩, Hg⟩
  isplitl [HA1 HA2 HA3 HA4 HA5 HA6 HS]
  · isplitl [HA1]; · iexact HA1
    isplitl [HA2]; · iexact HA2
    isplitl [HA3]; · iexact HA3
    isplitl [HA4]; · iexact HA4
    isplitl [HA5]; · iexact HA5
    isplitl [HA6]; · iexact HA6
    iexists _; iexact HS
  iexact Hg

end

end Cert.Kernel.UpdBody

end
-- ==== Proof.KernelWhole.lean ====
import proofs.«124577_j81003083202674_2_alg».proof.Proof.Gen.Kernel.Launch
import proofs.«124577_j81003083202674_2_alg».proof.Proof.Gen.Kernel.Skeleton
import proofs.«124577_j81003083202674_2_alg».proof.Proof.Gen.Kernel.Points
import proofs.«124577_j81003083202674_2_alg».proof.Proof.Gen.Kernel.Regions
import proofs.«124577_j81003083202674_2_alg».proof.Proof.KernelOutBody
import proofs.«124577_j81003083202674_2_alg».proof.Proof.KernelUpdBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Whole

open Cert.Kernel Cert.Kernel.Gen Cert.Kernel.OutBody Cert.Kernel.UpdBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: two stretches of host operations and two regions, from the launch to the return

The buffer contents at each boundary are a fold from the launch memory: a stretch of host operations applies its
operations; a region leaves each of its arrays at what its write-backs fold to and every other buffer as it found it.
The run ends with EVERY unscoped buffer at the last boundary's contents, from which the frame claim and the three results
are read. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no operation of the first stretch writes is as launched after it; likewise the second stretch. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (UpdBody.hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and the final
    memory holds every unscoped buffer at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-! ## The arguments end as launched -/

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_arr m ρ c 1).trans <| ((dat1 (V3 m ρ) c).arrAt_in 1 rfl _).trans <| (A_eq1 (V3 m ρ) c 1).trans <|
    (W3_of m ρ c main_arg1 (by decide)).trans <| (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl

/-- THE FRAME claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0 (by decide)).trans (W4_main_arg0 m ρ c),
    (h c main_arg1 (by decide)).trans (W4_main_arg1 m ρ c), (h c main_arg2 (by decide)).trans (W4_main_arg2 m ρ c)⟩) (run_all m ρ)

end Cert.Kernel.Whole

end
-- ==== Proof.KernelIdealOutBody.lean ====
import proofs.«124577_j81003083202674_2_alg».proof.Proof.Gen.KernelIdeal.Launch
import proofs.«124577_j81003083202674_2_alg».proof.Proof.Gen.KernelIdeal.Skeleton
import proofs.«124577_j81003083202674_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.OutBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region: `out = x · wᵀ`, accumulated in its output block over the eight slices of the contracted axis

The grid is 4 × 4 × 8; the last coordinate walks the contracted axis in slices of 512. At a point whose last coordinate is
zero the body zeroes its output block and adds the slice's product to it; at every other point it adds the slice's product to
what the point before left in the same block (the block index does not depend on the last coordinate, and the block is
written back only after the eighth slice). Everything here is stated at a parameter `V`, the buffers as the region finds them. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The reset condition -/

/-- "The slice is the first one", as the body computes it from the grid coordinates. -/
abbrev cond0 (i : grid0.Coords) : Prop := (Scalar.cmpi .ne (Scalar.extui (Scalar.cmpi .eq (BitVec.ofNat 32 (i 2).val) 0#32)) 0#32) = 1#1
/-- It holds exactly at the points whose number is a multiple of eight (the last coordinate is the number modulo 8). -/
theorem hcond0 : ∀ t : Fin cfg0.N, cond0 (grid0.coords t) ↔ t.val % 8 = 0 :=
  (by decide +kernel : ∀ t : Fin grid0.N, cond0 (grid0.coords t) ↔ t.val % 8 = 0)

/-! ## The body's two runs -/

/-- The zero offsets of the one rectangle the body loads and stores through. -/
theorem hz2 : (![0, 0] : Fin 2 → Nat) = fun _ => 0 := by funext a; fin_cases a <;> rfl

set_option maxHeartbeats 1000000 in
/-- At a first slice: whatever the output block held, the body leaves in it the product of the two slices added to the zero block. -/
theorem sound_reset (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole)
    (hc : cond0 i) (x0 : Vec F S2048x512 .bf16) (x1 : Vec F S1024x512 .bf16) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (k0_pay2 (k0_pay1 (F := F)) x0 x1)) -∗ K ⟨⟩))
      ⊢ wp frame (wpE (defs₀ (F := F)) Variants.none c none) E (cc0_kernel i arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, Hk⟩
  obtain rfl := harg3.eq_unread hf0; obtain rfl := harg4.eq_unread hf1
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  sl_unfold_words
  rw [View.read_writes_eq_canon _ _ _ (fun y => ⟨_, List.mem_cons_self, View.mem_set_unit_zero hz2 Facts₀.inb_S2048x1024_S2048x1024_0_0 y⟩), View.canon_cons_unit_zero hz2]
  simp only [View.readCov_unit_zero (S := S2048x1024) arg5.view hz2, View.readAt_eq_ld, harg3.read_unread, harg4.read_unread, View.ld_unit_zero (S := S2048x512) hz2, View.ld_unit_zero (S := S1024x512) hz2]

set_option maxHeartbeats 1000000 in
/-- At a later slice: the output block holding `xo`, the body leaves in it the product of the two slices added to `xo`. -/
theorem sound_add (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole)
    (hc : ¬cond0 i) (x0 : Vec F S2048x512 .bf16) (x1 : Vec F S1024x512 .bf16) (xo : Vec F S2048x1024 .f32) (E : Set ℕ) (K : PUnit → sProp 𝕄) :
    iprop(owns (c : Thread nD τ) arg3 fullShare x0 ∗ owns (c : Thread nD τ) arg4 fullShare x1 ∗ owns (c : Thread nD τ) arg5 fullShare xo
        ∗ (iprop(owns (c : Thread nD τ) arg3 fullShare x0 ∗ owns (c : Thread nD τ) arg4 fullShare x1
            ∗ owns (c : Thread nD τ) arg5 fullShare (k0_pay2 xo x0 x1)) -∗ K ⟨⟩))
      ⊢ wp frame (wpE (defs₀ (F := F)) Variants.none c none) E (cc0_kernel i arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  rw [View.read_writes_eq_canon _ _ _ (fun y => ⟨_, List.mem_singleton_self _, View.mem_set_unit_zero hz2 Facts₀.inb_S2048x1024_S2048x1024_0_0 y⟩), View.canon_unit_zero hz2]
  simp only [View.readAt_eq_ld, harg3.read_unread, harg4.read_unread, harg5.read_unread, View.ld_unit_zero (S := S2048x1024) hz2, View.ld_unit_zero (S := S2048x512) hz2, View.ld_unit_zero (S := S1024x512) hz2]

/-! ## What the output block holds after each point -/

section
variable (V : (c : Dev nD) → (b : Ref sig .tc) → Buf (Elt F) ((c : Thread nD τ).loc b))

/-- THE ACCUMULATION. The output block after the body at position `n`: at a first slice the slice's product added to
    the zero block, at a later slice the slice's product added to what position `n - 1` left. -/
def accAt0 (c : Dev nD) : (n : ℕ) → n < cfg0.N → Vec F S2048x1024 .f32
  | 0, hn => k0_pay2 (k0_pay1 (F := F)) (iblk0 V c 0 ⟨0, hn⟩) (iblk0 V c 1 ⟨0, hn⟩)
  | n + 1, hn =>
    if (n + 1) % 8 = 0 then k0_pay2 (k0_pay1 (F := F)) (iblk0 V c 0 ⟨n + 1, hn⟩) (iblk0 V c 1 ⟨n + 1, hn⟩)
    else k0_pay2 (accAt0 c n (Nat.lt_of_succ_lt hn)) (iblk0 V c 0 ⟨n + 1, hn⟩) (iblk0 V c 1 ⟨n + 1, hn⟩)

theorem accAt0_reset (c : Dev nD) (t : Fin cfg0.N) (h0 : t.val % 8 = 0) :
    accAt0 V c t.val t.isLt = k0_pay2 (k0_pay1 (F := F)) (iblk0 V c 0 t) (iblk0 V c 1 t) := by
  obtain ⟨n, hn⟩ := t
  cases n with
  | zero => rfl
  | succ n => exact (if_pos h0).trans rfl

theorem accAt0_add (c : Dev nD) (t : Fin cfg0.N) (h0 : ¬t.val % 8 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact (if_neg h0).trans rfl

/-! ## The region's proof data -/

/-- The arrays as the region finds them; after the body at a point each factor's buffer at its block and the output's at
    the accumulation; the invariant says nothing beyond the buffers the body never touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later slice the output's staging buffer holds what the body left at the point before: the point is not the first,
    and the block is written back only after an eighth slice, which the point before is not. -/
theorem before0_2_add (c : Dev nD) (t : Fin cfg0.N) (h0 : ¬t.val % 8 = 0) (d) :
    (dat0 V c).before 2 t d = accAt0 V c (t.val - 1) (Nat.lt_of_le_of_lt (Nat.sub_le _ _) t.isLt) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the factors' buffers hold their blocks; the point's number modulo eight says which run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · rw [accAt0_reset V c t h0]
    iintro ⟨HΦ, Ho, ⟨%d0, H0⟩, ⟨%d1, H1⟩, ⟨%d2, H2⟩⟩
    iapply (sound_reset c (grid0.coords t) _ _ _ _ _ _ ((hcond0 t).mpr h0) (iblk0 V c 0 t) (iblk0 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt0_add V c t h0]
    simp only [before0_2_add V c t h0]
    iintro ⟨HΦ, Ho, ⟨%d0, H0⟩, ⟨%d1, H1⟩, ⟨%d2, H2⟩⟩
    iapply (sound_add c (grid0.coords t) _ _ _ _ _ _ (fun h => h0 ((hcond0 t).mp h)) (iblk0 V c 0 t) (iblk0 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem body_obligation0 (c : Dev nD) : BodyObligation (dat0 (F := F) V c) (defs₀ (F := F)) Variants.none () Set.univ := fun t => by
  rw [bigSep_W0, bigSep_W0]
  exact sound_body0 V c t

end

end Cert.KernelIdeal.OutBody

end
-- ==== Proof.KernelIdealUpdBody.lean ====
import proofs.«124577_j81003083202674_2_alg».proof.Proof.Gen.KernelIdeal.Launch
import proofs.«124577_j81003083202674_2_alg».proof.Proof.Gen.KernelIdeal.Skeleton
import proofs.«124577_j81003083202674_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.UpdBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: the weight update, its sum over the batch carried in a scratch block

The grid is 8 × 32; the second coordinate walks the batch in tiles of 256 rows. At every point the body forms the tile's
rectified activity `max(out − threshold, 0)`, contracts it with the tile of `x` over the tile's rows and adds the product to
the scratch block — zeroed first at the first tile. At the last tile it stores `weight + rate · scratch` into the output
block; at every other point the output block is not touched and not written back. Everything is stated at a parameter `V`. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, its block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (unfetched, its block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (unfetched, its block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions -/

/-- "The tile is the first one", as the body computes it from the grid coordinates. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 32 = 0 :=
  (by decide +kernel : ∀ t : Fin grid1.N, condFirst (grid1.coords t) ↔ t.val % 32 = 0)
/-- "The tile is the last one". -/
abbrev condLast (i : grid1.Coords) : Prop := k1_cond2 i = 1#1
theorem hcondLast : ∀ t : Fin cfg1.N, condLast (grid1.coords t) ↔ t.val % 32 = 31 :=
  (by decide +kernel : ∀ t : Fin grid1.N, condLast (grid1.coords t) ↔ t.val % 32 = 31)

/-- The output window is never idle where the last tile's store happens, idle and not written back elsewhere. -/
theorem idleAt_notLast : ∀ t : Fin cfg1.N, ¬condLast (grid1.coords t) → cfg1.idle 4 (grid1.coords t) = true := by decide +kernel
theorem noFlush_notLast : ∀ t : Fin cfg1.N, ¬condLast (grid1.coords t) → (cfg1.win 4).flush t = false := by decide +kernel
theorem liveAt_last : ∀ t : Fin cfg1.N, condLast (grid1.coords t) → cfg1.idle 4 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The body's three runs -/

theorem hz2 : (![0, 0] : Fin 2 → Nat) = fun _ => 0 := by funext a; fin_cases a <;> rfl

/-- The scratch operand: a whole buffer of the kernel's own, passed beside the windows. -/
abbrev scM : Memref sig .tc .vmem S512x4096 .f32 := Memref.whole cc1_scratch0

set_option maxHeartbeats 2000000 in
/-- At a first tile (not the last): whatever the scratch held, the body leaves in it the tile's product added to the zero
    block; the output block is handed back untouched. -/
theorem sound_first (c : Dev nD) (i : grid1.Coords) (arg2 : Memref sig .tc .vmem S256x4096 .bf16) (harg2 : arg2.IsWhole) (arg3 : Memref sig .tc .vmem S512x4096 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x4096 .f32) (harg6 : arg6.IsWhole) (arg7 : Memref sig .tc .vmem S512x4096 .f32) (harg7 : arg7.IsWhole)
    (hc1 : condFirst i) (hc2 : ¬condLast i) (x0 : Vec F S256x4096 .bf16) (x1 : Vec F S512x4096 .f32) (x2 : Vec F S256x512 .f32) (x3 : Vec F S1x512 .f32) (xi : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k1_pay2 x2 x3 x0 (k1_pay1 (F := F)))) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro
  sl_unfold_words
  rw [View.read_writes_eq_canon _ _ _ (fun y => ⟨_, List.mem_cons_self, View.mem_set_unit_zero hz2 Facts₀.inb_S512x4096_S512x4096_0_0 y⟩), View.canon_cons_unit_zero hz2]
  simp only [View.readCov_unit_zero (S := S512x4096) arg7.view hz2, View.readAt_eq_ld, harg2.read_unread, harg3.read_unread, harg4.read_unread, harg5.read_unread, harg7.read_unread, View.ld_unit_zero (S := S256x512) hz2, View.ld_unit_zero (S := S1x512) hz2, View.ld_unit_zero (S := S256x4096) hz2, View.ld_unit_zero (S := S512x4096) hz2]

set_option maxHeartbeats 2000000 in
/-- At a middle tile: the scratch holding `xs`, the body leaves in it the tile's product added to `xs`; the output block is
    handed back untouched. -/
theorem sound_middle (c : Dev nD) (i : grid1.Coords) (arg2 : Memref sig .tc .vmem S256x4096 .bf16) (harg2 : arg2.IsWhole) (arg3 : Memref sig .tc .vmem S512x4096 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x4096 .f32) (harg6 : arg6.IsWhole) (arg7 : Memref sig .tc .vmem S512x4096 .f32) (harg7 : arg7.IsWhole)
    (hc1 : ¬condFirst i) (hc2 : ¬condLast i) (x0 : Vec F S256x4096 .bf16) (x1 : Vec F S512x4096 .f32) (x2 : Vec F S256x512 .f32) (x3 : Vec F S1x512 .f32) (xi : Vec F S512x4096 .f32) (xs : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k1_pay2 x2 x3 x0 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro
  rw [View.read_writes_eq_canon _ _ _ (fun y => ⟨_, List.mem_singleton_self _, View.mem_set_unit_zero hz2 Facts₀.inb_S512x4096_S512x4096_0_0 y⟩), View.canon_unit_zero hz2]
  simp only [View.readAt_eq_ld, harg2.read_unread, harg3.read_unread, harg4.read_unread, harg5.read_unread, harg7.read_unread, View.ld_unit_zero (S := S256x512) hz2, View.ld_unit_zero (S := S1x512) hz2, View.ld_unit_zero (S := S256x4096) hz2, View.ld_unit_zero (S := S512x4096) hz2]

set_option maxHeartbeats 2000000 in
/-- At a last tile: the scratch holding `xs`, the body leaves in it `s' =` the tile's product added to `xs`, and in the
    output block, whatever it held, `weight + rate · s'`. -/
theorem sound_last (c : Dev nD) (i : grid1.Coords) (arg2 : Memref sig .tc .vmem S256x4096 .bf16) (harg2 : arg2.IsWhole) (arg3 : Memref sig .tc .vmem S512x4096 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x4096 .f32) (harg6 : arg6.IsWhole) (arg7 : Memref sig .tc .vmem S512x4096 .f32) (harg7 : arg7.IsWhole)
    (hc1 : ¬condFirst i) (hc2 : condLast i) (x0 : Vec F S256x4096 .bf16) (x1 : Vec F S512x4096 .f32) (x2 : Vec F S256x512 .f32) (x3 : Vec F S1x512 .f32) (xs : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay3 x1 (k1_pay2 x2 x3 x0 xs)) ∗ owns (c : Thread nD τ) arg7 fullShare (k1_pay2 x2 x3 x0 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3; obtain rfl := harg7.eq_unread hf5
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_singleton_self _, View.mem_set_unit_zero hz2 Facts₀.inb_S512x4096_S512x4096_0_0 y⟩), View.canon_unit_zero hz2]
    simp only [View.readAt_eq_ld, harg2.read_unread, harg3.read_unread, harg4.read_unread, harg5.read_unread, harg7.read_unread, View.ld_unit_zero (S := S256x512) hz2, View.ld_unit_zero (S := S1x512) hz2, View.ld_unit_zero (S := S256x4096) hz2, View.ld_unit_zero (S := S512x4096) hz2, View.readCov_unit_zero (S := S512x4096) arg7.view hz2]
  iexists _; isplitr
  swap; · iexact H5
  ipureintro
  sl_unfold_words
  rw [View.read_writes_eq_canon _ _ _ (fun y => ⟨_, List.mem_singleton_self _, View.mem_set_unit_zero hz2 Facts₀.inb_S512x4096_S512x4096_0_0 y⟩), View.canon_unit_zero hz2]
  simp only [View.readAt_eq_ld, harg2.read_unread, harg3.read_unread, harg4.read_unread, harg5.read_unread, harg7.read_unread, View.ld_unit_zero (S := S256x512) hz2, View.ld_unit_zero (S := S1x512) hz2, View.ld_unit_zero (S := S256x4096) hz2, View.ld_unit_zero (S := S512x4096) hz2]

/-! ## What the scratch and the output block hold after each point -/

section
variable (V : (c : Dev nD) → (b : Ref sig .tc) → Buf (Elt F) ((c : Thread nD τ).loc b))

/-- THE ACCUMULATION. The scratch block after the body at position `n`: at a first tile the tile's product added to the
    zero block, at a later tile the tile's product added to what position `n - 1` left. -/
def accAt1 (c : Dev nD) : (n : ℕ) → n < cfg1.N → Vec F S512x4096 .f32
  | 0, hn => k1_pay2 (iblk1 V c 2 ⟨0, hn⟩) (iblk1 V c 3 ⟨0, hn⟩) (iblk1 V c 0 ⟨0, hn⟩) (k1_pay1 (F := F))
  | n + 1, hn =>
    if (n + 1) % 32 = 0 then k1_pay2 (iblk1 V c 2 ⟨n + 1, hn⟩) (iblk1 V c 3 ⟨n + 1, hn⟩) (iblk1 V c 0 ⟨n + 1, hn⟩) (k1_pay1 (F := F))
    else k1_pay2 (iblk1 V c 2 ⟨n + 1, hn⟩) (iblk1 V c 3 ⟨n + 1, hn⟩) (iblk1 V c 0 ⟨n + 1, hn⟩) (accAt1 c n (Nat.lt_of_succ_lt hn))

theorem accAt1_first (c : Dev nD) (t : Fin cfg1.N) (h0 : t.val % 32 = 0) :
    accAt1 V c t.val t.isLt = k1_pay2 (iblk1 V c 2 t) (iblk1 V c 3 t) (iblk1 V c 0 t) (k1_pay1 (F := F)) := by
  obtain ⟨n, hn⟩ := t
  cases n with
  | zero => rfl
  | succ n => exact (if_pos h0).trans rfl

theorem accAt1_later (c : Dev nD) (t : Fin cfg1.N) (h0 : ¬t.val % 32 = 0) :
    accAt1 V c t.val t.isLt = k1_pay2 (iblk1 V c 2 t) (iblk1 V c 3 t) (iblk1 V c 0 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The output block as the last tile's store leaves it (at the other points the window is idle and this is not consulted). -/
def outAt1 (c : Dev nD) (t : Fin cfg1.N) : Vec F S512x4096 .f32 := k1_pay3 (iblk1 V c 1 t) (accAt1 V c t.val t.isLt)

/-! ## The region invariant: the scratch carried between points -/

/-- The core's scoped buffers that are neither a staging buffer of this region nor its scratch, each at some contents,
    beside a statement `S` about the scratch. -/
abbrev restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- What a body of this region may use and need not describe, with the scratch as a memref owned at some contents. -/
theorem PhiA1_eq (c : Dev nD) :
    (Pipeline.ΦA spec1 c : sProp 𝕄) = iprop(restWith c iprop(∃ d, owns (c : Thread nD τ) scM fullShare d) ∗ (∃ r, prngReg c r)) := by
  unfold Pipeline.ΦA; rw [scopedRest1_eq]; simp only [scM, owns_whole]; try rfl

/-- Before position `n`: before the first point the scratch is at anything; afterwards at what the point before left in it. -/
def PhiS (c : Dev nD) : (n : ℕ) → n ≤ cfg1.N → sProp 𝕄
  | 0, _ => Pipeline.ΦA spec1 c
  | n + 1, hn => iprop(restWith c (owns (c : Thread nD τ) scM fullShare (accAt1 V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c (owns (c : Thread nD τ) scM fullShare (accAt1 V c n hn)) ∗ (∃ r, prngReg c r)) := rfl
theorem PhiS_pos (c : Dev nD) (n : ℕ) (h : n ≤ cfg1.N) (hz : n ≠ 0) :
    PhiS V c n h = iprop(restWith c (owns (c : Thread nD τ) scM fullShare (accAt1 V c (n - 1) (by omega))) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the point's number modulo 32 says which run applies; the
    invariant hands the body the scratch at what the point before left (at anything at a first tile) and takes it back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h1 : t.val % 32 = 31
  · have h0 : ¬t.val % 32 = 0 := by omega
    have hz : t.val ≠ 0 := fun e => by rw [e] at h1; omega
    rw [show (dat1 V c).leavesExact 4 t = owns (c : Thread nD τ) (st1_4 t) fullShare ((dat1 V c).after 4 t) from by
      unfold Dat.leavesExact; rw [liveAt_last t ((hcondLast t).mpr h1)], after1_4]
    unfold outAt1
    rw [accAt1_later V c t h0, PhiS_castSucc V c t, PhiS_pos V c _ _ hz]
    iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
    iapply (sound_last c (grid1.coords t) _ _ _ _ _ _ _ _ _ _ _ _ (fun h => h0 ((hcondFirst t).mp h)) ((hcondLast t).mpr h1)
      (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HA1 HA2 HA3 HA4 HA5 HA6 HS Hg]
    · isplitl [HA1 HA2 HA3 HA4 HA5 HA6 HS]
      · isplitl [HA1]; · iexact HA1
        isplitl [HA2]; · iexact HA2
        isplitl [HA3]; · iexact HA3
        isplitl [HA4]; · iexact HA4
        isplitl [HA5]; · iexact HA5
        isplitl [HA6]; · iexact HA6
        iexact HS
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt_notLast t (fun h => h1 ((hcondLast t).mp h))) (noFlush_notLast t (fun h => h1 ((hcondLast t).mp h)))]
    by_cases h0 : t.val % 32 = 0
    · rw [accAt1_first V c t h0]
      by_cases hz : t.val = 0
      · rw [PhiS_castSucc V c t, PhiS_zero V c _ _ hz, PhiA1_eq]
        iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
        iapply (sound_first c (grid1.coords t) _ _ _ _ _ _ _ _ _ _ _ _ ((hcondFirst t).mpr h0) (fun h => h1 ((hcondLast t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HA1 HA2 HA3 HA4 HA5 HA6 HS Hg]
        · isplitl [HA1 HA2 HA3 HA4 HA5 HA6 HS]
          · isplitl [HA1]; · iexact HA1
            isplitl [HA2]; · iexact HA2
            isplitl [HA3]; · iexact HA3
            isplitl [HA4]; · iexact HA4
            isplitl [HA5]; · iexact HA5
            isplitl [HA6]; · iexact HA6
            iexact HS
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
        iapply (sound_first c (grid1.coords t) _ _ _ _ _ _ _ _ _ _ _ _ ((hcondFirst t).mpr h0) (fun h => h1 ((hcondLast t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, HS⟩
        isplitl [HA1 HA2 HA3 HA4 HA5 HA6 HS Hg]
        · isplitl [HA1 HA2 HA3 HA4 HA5 HA6 HS]
          · isplitl [HA1]; · iexact HA1
            isplitl [HA2]; · iexact HA2
            isplitl [HA3]; · iexact HA3
            isplitl [HA4]; · iexact HA4
            isplitl [HA5]; · iexact HA5
            isplitl [HA6]; · iexact HA6
            iexact HS
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun e => h0 (by rw [e])
      rw [accAt1_later V c t h0, PhiS_castSucc V c t, PhiS_pos V c _ _ hz]
      iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
      iapply (sound_middle c (grid1.coords t) _ _ _ _ _ _ _ _ _ _ _ _ (fun h => h0 ((hcondFirst t).mp h)) (fun h => h1 ((hcondLast t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HA1 HA2 HA3 HA4 HA5 HA6 HS Hg]
      · isplitl [HA1 HA2 HA3 HA4 HA5 HA6 HS]
        · isplitl [HA1]; · iexact HA1
          isplitl [HA2]; · iexact HA2
          isplitl [HA3]; · iexact HA3
          isplitl [HA4]; · iexact HA4
          isplitl [HA5]; · iexact HA5
          isplitl [HA6]; · iexact HA6
          iexact HS
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  iintro ⟨⟨HA1, HA2, HA3, HA4, HA5, HA6, HS⟩, Hg⟩
  isplitl [HA1 HA2 HA3 HA4 HA5 HA6 HS]
  · isplitl [HA1]; · iexact HA1
    isplitl [HA2]; · iexact HA2
    isplitl [HA3]; · iexact HA3
    isplitl [HA4]; · iexact HA4
    isplitl [HA5]; · iexact HA5
    isplitl [HA6]; · iexact HA6
    iexists _; iexact HS
  iexact Hg

end

end Cert.KernelIdeal.UpdBody

end
-- ==== Proof.KernelIdealWhole.lean ====
import proofs.«124577_j81003083202674_2_alg».proof.Proof.Gen.KernelIdeal.Launch
import proofs.«124577_j81003083202674_2_alg».proof.Proof.Gen.KernelIdeal.Skeleton
import proofs.«124577_j81003083202674_2_alg».proof.Proof.Gen.KernelIdeal.Points
import proofs.«124577_j81003083202674_2_alg».proof.Proof.Gen.KernelIdeal.Regions
import proofs.«124577_j81003083202674_2_alg».proof.Proof.KernelIdealOutBody
import proofs.«124577_j81003083202674_2_alg».proof.Proof.KernelIdealUpdBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Whole

open Cert.KernelIdeal Cert.KernelIdeal.Gen Cert.KernelIdeal.OutBody Cert.KernelIdeal.UpdBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: two stretches of host operations and two regions, from the launch to the return

The buffer contents at each boundary are a fold from the launch memory: a stretch of host operations applies its
operations; a region leaves each of its arrays at what its write-backs fold to and every other buffer as it found it.
The run ends with EVERY unscoped buffer at the last boundary's contents, from which the frame claim and the three results
are read. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no operation of the first stretch writes is as launched after it; likewise the second stretch. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (UpdBody.hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and the final
    memory holds every unscoped buffer at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-! ## The arguments end as launched -/

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_arr m ρ c 1).trans <| ((dat1 (V3 m ρ) c).arrAt_in 1 rfl _).trans <| (A_eq1 (V3 m ρ) c 1).trans <|
    (W3_of m ρ c main_arg1 (by decide)).trans <| (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl

/-- THE FRAME claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0 (by decide)).trans (W4_main_arg0 m ρ c),
    (h c main_arg1 (by decide)).trans (W4_main_arg1 m ρ c), (h c main_arg2 (by decide)).trans (W4_main_arg2 m ρ c)⟩) (run_all m ρ)

end Cert.KernelIdeal.Whole

end
-- ==== Proof.Spec.lean ====
/-
  The specification: the three results of one step of a sliding-threshold (BCM) Hebbian update, stated
  index by index on the extended reals, as functions of the three argument arrays and of nothing else.

  With x : [8192, 4096] (a batch of 8192 input rows), w : [4096, 4096] (one row of weights per output
  unit) and thr : [4096] (one threshold per output unit):

    out  (b, o) = Σ_k x (b, k) · w (o, k)                              the layer's output, x · wᵀ
    act  o      = (Σ_b out (b, o)) / 8192                              the mean activity of unit o over the batch
    nthr o      = thr o + (act o · act o − thr o) / 1000               the threshold moved towards the squared mean
    post (b, o) = max (out (b, o) − nthr o) 0                          the activity above the new threshold
    nw   (o, i) = w (o, i) + c · Σ_b post (b, o) · x (b, i)            the weights plus the scaled correlation postᵀ · x

  The two divisors and the scale c are kept as the float words the programs carry (8192 is the word
  0x46000000, 1000 the word 0x447A0000, c the word 0x3403126F); none of them is ever evaluated: both
  programs divide and scale by the same words. The sums are sums over `Fin 4096` / `Fin 8192` in the
  commutative monoid of the extended reals, so they carry no order of summation.
-/
import Idealize.ShloMosaic.PureOps.Ideal
import Idealize.ShloMosaic.Lib.ValueIdx

noncomputable section

open scoped BigOperators

namespace Cert.Plasticity

open Idealize.ShloMosaic Idealize.ShloMosaic.ValueIdx

/-- The shape of the input batch, 8192 rows of 4096 entries; the layer's output has the same shape (8192 rows, one
    entry per output unit). -/
abbrev SBatch : Shape := ⟨2, ![8192, 4096]⟩
/-- The shape of the weights: 4096 output units by 4096 inputs. -/
abbrev SWeight : Shape := ⟨2, ![4096, 4096]⟩
/-- The shape of the thresholds: one per output unit. -/
abbrev SUnit : Shape := ⟨1, ![4096]⟩

/-- The divisor of the batch mean: the float word of 8192. -/
abbrev batchSize : EReal := Ideal.ofBits .f32 0x46000000#32
/-- The time constant of the threshold's moving average: the float word of 1000. -/
abbrev tau : EReal := Ideal.ofBits .f32 0x447A0000#32
/-- The scale of the weight update (the learning rate over the batch size, as one float word). -/
abbrev rate : EReal := Ideal.ofBits .f32 0x3403126F#32

variable (x : FVec Ideal SBatch .f32) (w : FVec Ideal SWeight .f32) (thr : FVec Ideal SUnit .f32)

/-- The layer's output at batch row `b` and unit `o`: the inner product of input row `b` with weight row `o`. -/
def out (b : Fin 8192) (o : Fin 4096) : EReal := ∑ k : Fin 4096, x (ix2 b k) * w (ix2 o k)

/-- The mean activity of unit `o`: its outputs summed over the batch, divided by the batch size. -/
def act (o : Fin 4096) : EReal := Ideal.div (∑ b : Fin 8192, out x w b o) batchSize

/-- The new threshold of unit `o`: the old one plus a thousandth of its distance to the squared mean activity. -/
def nthr (o : Fin 4096) : EReal := thr (ix1 o) + Ideal.div (act x w o * act x w o - thr (ix1 o)) tau

/-- The post-synaptic term at batch row `b` and unit `o`: the output's excess over the new threshold, or zero. -/
def post (b : Fin 8192) (o : Fin 4096) : EReal := max (out x w b o - nthr x w thr o) 0

/-- The new weight from input `i` to unit `o`: the old one plus the scaled sum over the batch of post-synaptic term
    times input. -/
def nw (o : Fin 4096) (i : Fin 4096) : EReal := w (ix2 o i) + rate * ∑ b : Fin 8192, post x w thr b o * x (ix2 b i)

/-- FIRST RESULT, as an array: the layer's output. -/
def outArr : FVec Ideal SBatch .f32 := fun j => out x w (j 0) (j 1)
/-- SECOND RESULT, as an array: the new thresholds. -/
def nthrArr : FVec Ideal SUnit .f32 := fun j => nthr x w thr (j 0)
/-- THIRD RESULT, as an array: the new weights. -/
def nwArr : FVec Ideal SWeight .f32 := fun j => nw x w thr (j 0) (j 1)

/-- The output array at the index of coordinates `(b, o)`. -/
theorem outArr_ix2 (b : Fin 8192) (o : Fin 4096) : outArr x w (ix2 b o) = out x w b o := rfl
/-- The threshold array at the index of coordinate `o`. -/
theorem nthrArr_ix1 (o : Fin 4096) : nthrArr x w thr (ix1 o) = nthr x w thr o := rfl
/-- The weight array at the index of coordinates `(o, i)`. -/
theorem nwArr_ix2 (o i : Fin 4096) : nwArr x w thr (ix2 o i) = nw x w thr o i := rfl

end Cert.Plasticity

end
-- ==== Proof.RefIsSpec.lean ====
/-
  The reference program's three results are the specification's three arrays.

  The reference computes, stage by stage: the transpose of the weights; the product of the inputs with it (the layer's
  output); the sum of the output over the batch from the zero constant, divided by the batch size (the mean activity);
  the threshold's update; the output minus the new threshold broadcast along the batch, clipped below at zero; the
  product of that, transposed, with the inputs; its multiple by the scale; the weights plus that. Read at an index,
  each stage is the corresponding line of the specification: a product over one contracted axis is the sum over that
  axis's positions, the sum from the zero constant is the sum (`0 + s = s`), a broadcast reads its operand at the
  coordinates it keeps, and every other stage is elementwise. Nothing here needs the inputs finite.
-/
import proofs.«124577_j81003083202674_2_alg».proof.Proof.Gen.ReferenceIdeal.Read
import proofs.«124577_j81003083202674_2_alg».proof.Proof.Spec

noncomputable section

open scoped BigOperators

namespace Cert.Plasticity

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read

variable (x0 : (⟨S8192x4096, .f32⟩ : BufTy).Contents (Elt Ideal)) (x1 : (⟨S4096x4096, .f32⟩ : BufTy).Contents (Elt Ideal))
  (x2 : (⟨S4096, .f32⟩ : BufTy).Contents (Elt Ideal))

/-! ## Where each stage reads its operands, in coordinates -/

/-- The transposed weights at (k, o) are the weights at (o, k). -/
theorem idx_transpose (k o : Fin 4096) : idx_main_v0 (ix2 k o) = ix2 o k :=
  funext fun a => Fin.ext (by match a with | ⟨0, _⟩ => rfl | ⟨1, _⟩ => rfl)
/-- The first product at (b, o) reads the inputs at (b, k) … -/
theorem lidx_out (b : Fin 8192) (o k : Fin 4096) : lidx_main_v1 (ix2 b o) k = ix2 b k :=
  funext fun a => Fin.ext (by match a with | ⟨0, _⟩ => rfl | ⟨1, _⟩ => rfl)
/-- … and the transposed weights at (k, o). -/
theorem ridx_out (b : Fin 8192) (o k : Fin 4096) : ridx_main_v1 (ix2 b o) k = ix2 k o :=
  funext fun a => Fin.ext (by match a with | ⟨0, _⟩ => rfl | ⟨1, _⟩ => rfl)
/-- The sum over the batch at unit o reads the output at (b, o). -/
theorem idx_batchSum (o : Fin 4096) (b : Fin 8192) : idx_main_v2 (ix1 o) b = ix2 b o :=
  funext fun a => Fin.ext (by match a with | ⟨0, _⟩ => rfl | ⟨1, _⟩ => rfl)
/-- The new threshold broadcast along the batch reads, at (b, o), the threshold of unit o. -/
theorem idx_bcast (b : Fin 8192) (o : Fin 4096) : idx_main_v10 (idx_main_v11 (ix2 b o)) = ix1 o :=
  funext fun a => Fin.ext (by match a with | ⟨0, _⟩ => rfl)
/-- The second product at (o, i) reads the post-synaptic term at (b, o) … -/
theorem lidx_corr (o i : Fin 4096) (b : Fin 8192) : lidx_main_v15 (ix2 o i) b = ix2 b o :=
  funext fun a => Fin.ext (by match a with | ⟨0, _⟩ => rfl | ⟨1, _⟩ => rfl)
/-- … and the inputs at (b, i). -/
theorem ridx_corr (o i : Fin 4096) (b : Fin 8192) : ridx_main_v15 (ix2 o i) b = ix2 b i :=
  funext fun a => Fin.ext (by match a with | ⟨0, _⟩ => rfl | ⟨1, _⟩ => rfl)

/-! ## The stages at an index -/

/-- The reference's product of the inputs with the transposed weights, at (b, o), is the layer's output. -/
theorem ref_out_at (b : Fin 8192) (o : Fin 4096) : val_main_v1 (F := Ideal) x0 x1 (ix2 b o) = out x0 x1 b o := by
  rw [val_main_v1_apply]
  refine Finset.sum_congr rfl fun k _ => ?_
  rw [val_main_v0_apply, lidx_out, ridx_out, idx_transpose]

/-- The reference's sum over the batch from the zero constant, at unit o, is the sum of the outputs over the batch. -/
theorem ref_batchSum_at (o : Fin 4096) : val_main_v2 (F := Ideal) x0 x1 (ix1 o) = ∑ b : Fin 8192, out x0 x1 b o := by
  rw [val_main_v2_apply, val_main_cst_apply]
  refine (congrArg (· + _) Ideal.ofBits_zero_f32).trans ((zero_add _).trans ?_)
  refine Finset.sum_congr rfl fun b _ => ?_
  rw [idx_batchSum, ref_out_at]

/-- The reference's mean over the batch, at unit o, is the mean activity. -/
theorem ref_act_at (o : Fin 4096) : val_main_v4 (F := Ideal) x0 x1 (ix1 o) = act x0 x1 o := by
  rw [val_main_v4_apply, ref_batchSum_at, val_main_v3_apply, val_main_cst_0_apply]
  rfl

/-- The reference's updated threshold, at unit o, is the new threshold. -/
theorem ref_nthr_at (o : Fin 4096) : val_main_v9 (F := Ideal) x0 x1 x2 (ix1 o) = nthr x0 x1 x2 o := by
  rw [val_main_v9_apply, val_main_v8_apply, val_main_v6_apply, val_main_v5_apply, ref_act_at, val_main_v7_apply,
    val_main_cst_1_apply]
  rfl

/-- The reference's clipped difference, at (b, o), is the post-synaptic term. -/
theorem ref_post_at (b : Fin 8192) (o : Fin 4096) : val_main_v14 (F := Ideal) x0 x1 x2 (ix2 b o) = post x0 x1 x2 b o := by
  rw [val_main_v14_apply, val_main_v12_apply, ref_out_at, val_main_v11_apply, val_main_v10_apply, idx_bcast, ref_nthr_at,
    val_main_v13_apply, val_main_cst_2_apply]
  exact congrArg (max (out x0 x1 b o - nthr x0 x1 x2 o)) Ideal.ofBits_zero_f32

/-- The reference's updated weights, at (o, i), are the new weights. -/
theorem ref_nw_at (o i : Fin 4096) : val_main_v18 (F := Ideal) x0 x1 x2 (ix2 o i) = nw x0 x1 x2 o i := by
  rw [val_main_v18_apply, val_main_v17_apply, val_main_v16_apply, val_main_cst_3_apply, val_main_v15_apply]
  refine congrArg (fun s => x1 (ix2 o i) + Ideal.ofBits .f32 0x3403126F#32 * s) (Finset.sum_congr rfl fun b _ => ?_)
  rw [lidx_corr, ridx_corr, ref_post_at]

/-! ## The three results as arrays -/

/-- FIRST RESULT: the reference's output stage is the specification's output array. -/
theorem ref_out : val_main_v1 (F := Ideal) x0 x1 = outArr x0 x1 := by
  funext j
  obtain ⟨b, o, rfl⟩ : ∃ (b : Fin 8192) (o : Fin 4096), j = ix2 b o := ⟨j 0, j 1, eq_ix2 j⟩
  exact ref_out_at x0 x1 b o

/-- SECOND RESULT: the reference's threshold stage is the specification's threshold array. -/
theorem ref_nthr : val_main_v9 (F := Ideal) x0 x1 x2 = nthrArr x0 x1 x2 := by
  funext j
  obtain ⟨o, rfl⟩ : ∃ o : Fin 4096, j = ix1 o := ⟨j 0, eq_ix1 j⟩
  exact ref_nthr_at x0 x1 x2 o

/-- THIRD RESULT: the reference's weight stage is the specification's weight array. -/
theorem ref_nw : val_main_v18 (F := Ideal) x0 x1 x2 = nwArr x0 x1 x2 := by
  funext j
  obtain ⟨o, i, rfl⟩ : ∃ o i : Fin 4096, j = ix2 o i := ⟨j 0, j 1, eq_ix2 j⟩
  exact ref_nw_at x0 x1 x2 o i

/-! ## The reference's run, with its results named by the specification -/

/-- On every device, from any memory with zero counters: every weakly fair execution of the reference terminates with
    its three result buffers holding the specification's three arrays of the arguments' launch contents, the arguments
    unchanged. (The generated run states each result at the stages' composed term; that term is the last stage, and
    the last stage is the specification's array.) -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1)
          = outArr (m ((c.tc : Thread nD τ).loc main_arg0)) (m ((c.tc : Thread nD τ).loc main_arg1))
      ∧ r.2.mem ((c.tc : Thread nD τ).loc main_v9)
          = nthrArr (m ((c.tc : Thread nD τ).loc main_arg0)) (m ((c.tc : Thread nD τ).loc main_arg1))
              (m ((c.tc : Thread nD τ).loc main_arg2))
      ∧ r.2.mem ((c.tc : Thread nD τ).loc main_v18)
          = nwArr (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1.trans ((val_main_v1_eq _ _).trans (ref_out _ _)),
        (h c).2.1.trans ((val_main_v9_eq _ _ _).trans (ref_nthr _ _ _)),
        (h c).2.2.1.trans ((val_main_v18_eq _ _ _).trans (ref_nw _ _ _)),
        (h c).2.2.2⟩)
    (Cert.ReferenceIdeal.Value.run (F := Ideal) m ρ)

/-- The reference's frame: the same run with the three results dropped — every execution terminates and leaves the
    arguments as they were. It needs no hypothesis on the inputs. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => (h c).2.2.2) (Cert.ReferenceIdeal.Value.run (F := Ideal) m ρ)

end Cert.Plasticity

end
-- ==== Proof.KernelIdealHost.lean ====
/-
  The host operations of the kernel's program, read at the ideal values.

  Before the first region the program rounds the inputs and the weights to a narrower float format: on the extended
  reals a change of format is the identity, so the rounded arrays ARE the arguments. Between the two regions twelve
  host operations turn the first region's result y (the layer's output) and the thresholds t into the new thresholds:
  the sum of y over the batch from the zero constant, divided by the batch size; its square minus t, divided by the
  time constant; t plus that. That is the specification's threshold line with y in the place of the layer's output.
  A last reshape lays the new thresholds out as one row of 4096 entries; entry (0, o) of the row is entry o.
-/
import proofs.«124577_j81003083202674_2_alg».proof.Proof.Gen.KernelIdeal.Launch
import proofs.«124577_j81003083202674_2_alg».proof.Proof.Spec
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Host

open Idealize.ShloMosaic Idealize.ShloMosaic.TcCoe Idealize.SL.Sem Idealize.ShloMosaic.StableHlo Idealize.ShloMosaic.ValueIdx
open Cert.KernelIdeal Cert.KernelIdeal.Gen Cert.Plasticity

/-! ## Before the first region: the two changes of format -/

/-- After the first stretch of host operations the rounded inputs are the inputs: a change of float format is the
    identity on the extended reals. -/
theorem cast_v0 (W : Valuation τ sig (Elt Ideal)) :
    (StableHlo.after (hostOps0 (F := Ideal)) W (Proc.devRef .tc main_v0) : S8192x4096.Idx → EReal)
      = W (Proc.devRef .tc main_arg0) := by
  after_results
  rfl

/-- Likewise the rounded weights are the weights. -/
theorem cast_v1 (W : Valuation τ sig (Elt Ideal)) :
    (StableHlo.after (hostOps0 (F := Ideal)) W (Proc.devRef .tc main_v1) : S4096x4096.Idx → EReal)
      = W (Proc.devRef .tc main_arg1) := by
  after_results
  rfl

/-! ## Between the regions: the threshold's update as one function -/

/-- The mean over the batch of an [8192, 4096] array y, as the host computes it: the sum over the batch axis from the
    zero constant, divided by the broadcast batch size. -/
def meanOverBatch (y : (⟨S8192x4096, .f32⟩ : BufTy).Contents (Elt Ideal)) : (⟨S4096, .f32⟩ : BufTy).Contents (Elt Ideal) :=
  Host.divf (Host.reduceAdd y (constant (F := Ideal) S_ .f32 0x00000000#32) reducesTo_S8192x4096_S4096_d0 h_S_)
    (broadcastInDim S4096 ![] bcast_S_S4096 (constant (F := Ideal) S_ .f32 0x46000000#32))

/-- The thresholds' update from an output array y and thresholds t, as the host computes it. -/
def thrUpdate (y : (⟨S8192x4096, .f32⟩ : BufTy).Contents (Elt Ideal)) (t : (⟨S4096, .f32⟩ : BufTy).Contents (Elt Ideal)) :
    (⟨S4096, .f32⟩ : BufTy).Contents (Elt Ideal) :=
  addf t (Host.divf (subf (mulf (meanOverBatch y) (meanOverBatch y)) t)
    (broadcastInDim S4096 ![] bcast_S_S4096 (constant (F := Ideal) S_ .f32 0x447A0000#32)))

/-- After the second stretch of host operations the threshold buffer holds the update of the first region's result and
    the threshold argument. -/
theorem after_v10 (W : Valuation τ sig (Elt Ideal)) :
    StableHlo.after (hostOps1 (F := Ideal)) W (Proc.devRef .tc main_v10)
      = thrUpdate (W (Proc.devRef .tc main_v2)) (W (Proc.devRef .tc main_arg2)) := by
  after_results
  rfl

/-- … and the row buffer holds the same values laid out as one row. -/
theorem after_v11 (W : Valuation τ sig (Elt Ideal)) :
    StableHlo.after (hostOps1 (F := Ideal)) W (Proc.devRef .tc main_v11)
      = shapeCast S1x4096 (thrUpdate (W (Proc.devRef .tc main_v2)) (W (Proc.devRef .tc main_arg2))) shapeCasts_S4096_S1x4096 := by
  after_results
  rfl

/-- The host's sum over the batch axis from the zero constant, at unit o: the sum over the batch of y (b, o). -/
theorem reduce_at (y : (⟨S8192x4096, .f32⟩ : BufTy).Contents (Elt Ideal)) (o : Fin 4096) :
    Host.reduceAdd y (constant (F := Ideal) S_ .f32 0x00000000#32) reducesTo_S8192x4096_S4096_d0 h_S_ (ix1 o)
      = ∑ b : Fin 8192, y (ix2 b o) := by
  simp only [Host.reduceAdd, Ideal.hostReduceAdd_def]
  rw [Ideal.hostReduceAdd_single reducesTo_S8192x4096_S4096_d0 (by decide)]
  refine (congrArg (· + _) Ideal.ofBits_zero_f32).trans ((zero_add _).trans ?_)
  refine Finset.sum_congr rfl fun k _ => ?_
  exact congrArg y (funext fun a => Fin.ext (by match a with | ⟨0, _⟩ => rfl | ⟨1, _⟩ => rfl))

/-- A broadcast scalar constant reads the constant's value at every unit. -/
theorem bcast_at (c : BitVec 32) (o : Fin 4096) :
    broadcastInDim S4096 ![] bcast_S_S4096 (constant (F := Ideal) S_ .f32 c) (ix1 o) = Ideal.ofBits .f32 c :=
  broadcastInDim_apply _ bcast_S_S4096 (constant (F := Ideal) S_ .f32 c) (ix1 o) (fun a => a.elim0) (fun a => a.elim0)

/-- The mean over the batch at unit o. -/
theorem meanOverBatch_apply (y : (⟨S8192x4096, .f32⟩ : BufTy).Contents (Elt Ideal)) (o : Fin 4096) :
    meanOverBatch y (ix1 o) = Ideal.div (∑ b : Fin 8192, y (ix2 b o)) batchSize := by
  unfold meanOverBatch
  show Ideal.div (Host.reduceAdd y (constant (F := Ideal) S_ .f32 0x00000000#32) reducesTo_S8192x4096_S4096_d0 h_S_ (ix1 o))
      (broadcastInDim S4096 ![] bcast_S_S4096 (constant (F := Ideal) S_ .f32 0x46000000#32) (ix1 o)) = _
  rw [reduce_at, bcast_at]

/-- The thresholds' update at unit o. -/
theorem thrUpdate_apply (y : (⟨S8192x4096, .f32⟩ : BufTy).Contents (Elt Ideal)) (t : (⟨S4096, .f32⟩ : BufTy).Contents (Elt Ideal))
    (o : Fin 4096) :
    thrUpdate y t (ix1 o)
      = t (ix1 o) + Ideal.div (Ideal.div (∑ b : Fin 8192, y (ix2 b o)) batchSize * Ideal.div (∑ b : Fin 8192, y (ix2 b o)) batchSize
          - t (ix1 o)) tau := by
  unfold thrUpdate
  show t (ix1 o) + Ideal.div (meanOverBatch y (ix1 o) * meanOverBatch y (ix1 o) - t (ix1 o))
      (broadcastInDim S4096 ![] bcast_S_S4096 (constant (F := Ideal) S_ .f32 0x447A0000#32) (ix1 o)) = _
  rw [meanOverBatch_apply, bcast_at]

/-- On the specification's output array the host's update is the specification's new thresholds. -/
theorem thrUpdate_spec (x : FVec Ideal SBatch .f32) (w : FVec Ideal SWeight .f32) (thr : FVec Ideal SUnit .f32) :
    thrUpdate (outArr x w) thr = nthrArr x w thr := by
  funext j
  obtain ⟨o, rfl⟩ : ∃ o : Fin 4096, j = ix1 o := ⟨j 0, eq_ix1 j⟩
  rw [thrUpdate_apply]
  simp only [outArr_ix2]
  rfl

/-! ## The two buffers the second region reads -/

/-- If the first region left the specification's output array in its result buffer, the second stretch of host
    operations leaves the specification's new thresholds in the threshold buffer … -/
theorem thr_v10 (W : Valuation τ sig (Elt Ideal)) (x : FVec Ideal SBatch .f32) (w : FVec Ideal SWeight .f32)
    (thr : FVec Ideal SUnit .f32) (h2 : (W (Proc.devRef .tc main_v2) : SBatch.Idx → EReal) = outArr x w)
    (h3 : (W (Proc.devRef .tc main_arg2) : SUnit.Idx → EReal) = thr) :
    (StableHlo.after (hostOps1 (F := Ideal)) W (Proc.devRef .tc main_v10) : SUnit.Idx → EReal) = nthrArr x w thr :=
  (after_v10 W).trans ((congrArg₂ thrUpdate h2 h3).trans (thrUpdate_spec x w thr))

/-- … and, in the row buffer, at (u, o), the new threshold of unit o; -/
theorem thr_v11_ix2 (W : Valuation τ sig (Elt Ideal)) (x : FVec Ideal SBatch .f32) (w : FVec Ideal SWeight .f32)
    (thr : FVec Ideal SUnit .f32) (h2 : (W (Proc.devRef .tc main_v2) : SBatch.Idx → EReal) = outArr x w)
    (h3 : (W (Proc.devRef .tc main_arg2) : SUnit.Idx → EReal) = thr) (u : Fin 1) (o : Fin 4096) :
    (StableHlo.after (hostOps1 (F := Ideal)) W (Proc.devRef .tc main_v11) : (⟨2, ![1, 4096]⟩ : Shape).Idx → EReal) (ix2 u o)
      = nthr x w thr o := by
  rw [after_v11]
  refine (shapeCast_a_1a_apply _ shapeCasts_S4096_S1x4096 u o).trans ?_
  rw [congrArg₂ thrUpdate h2 h3, thrUpdate_spec]
  exact nthrArr_ix1 x w thr o

/-- the same at any index j of the row: the new threshold of unit j 1. -/
theorem thr_v11 (W : Valuation τ sig (Elt Ideal)) (x : FVec Ideal SBatch .f32) (w : FVec Ideal SWeight .f32)
    (thr : FVec Ideal SUnit .f32) (h2 : (W (Proc.devRef .tc main_v2) : SBatch.Idx → EReal) = outArr x w)
    (h3 : (W (Proc.devRef .tc main_arg2) : SUnit.Idx → EReal) = thr) (j : (⟨2, ![1, 4096]⟩ : Shape).Idx) :
    (StableHlo.after (hostOps1 (F := Ideal)) W (Proc.devRef .tc main_v11) : (⟨2, ![1, 4096]⟩ : Shape).Idx → EReal) j
      = nthr x w thr (j 1) := by
  obtain ⟨u, o, rfl⟩ : ∃ (u : Fin 1) (o : Fin 4096), j = ix2 u o := ⟨j 0, j 1, eq_ix2 j⟩
  exact thr_v11_ix2 W x w thr h2 h3 u o

end Cert.KernelIdeal.Host

end
-- ==== Proof.KernelIdealReads.lean ====
import proofs.«124577_j81003083202674_2_alg».proof.Proof.KernelIdealWhole
import proofs.«124577_j81003083202674_2_alg».proof.Proof.KernelIdealHost
import proofs.«124577_j81003083202674_2_alg».proof.Proof.Spec

noncomputable section

namespace Cert.KernelIdeal.Reads

open Cert.KernelIdeal Cert.KernelIdeal.Gen Cert.KernelIdeal.OutBody Cert.KernelIdeal.UpdBody Cert.KernelIdeal.Whole Cert.Plasticity
open Idealize.ShloMosaic Idealize.ShloMosaic.TcCoe Idealize.ShloMosaic.ValueIdx Idealize.SL.Sem
open Idealize.ShloMosaic.Pipeline (Dat)

/-! # The buffers at each boundary, in terms of the three arguments (at the ideal values)

The casts before the first region are the identity; the second stretch of host operations turns the first region's output
into the new threshold; no stretch and no region writes a buffer it is not said to write. -/

variable (m : (ℓ : Loc nD τ sig) → Buf (Elt Ideal) ℓ) (ρ : Dev nD → PrngReg) (c : Dev nD)

/-- The three arguments on core `c`. -/
abbrev aX : FVec Ideal SBatch .f32 := m ((c.tc : Thread nD τ).loc main_arg0)
abbrev aW : FVec Ideal SWeight .f32 := m ((c.tc : Thread nD τ).loc main_arg1)
abbrev aT : FVec Ideal SUnit .f32 := m ((c.tc : Thread nD τ).loc main_arg2)

/-- The first region's two factors are the batch and the weights. -/
theorem W1_v0 : (W1 m ρ c (Proc.devRef .tc main_v0) : SBatch.Idx → EReal) = aX m c := Host.cast_v0 (W0 m ρ c)
theorem W1_v1 : (W1 m ρ c (Proc.devRef .tc main_v1) : SWeight.Idx → EReal) = aW m c := Host.cast_v1 (W0 m ρ c)

/-- The first region leaves its factors and the arguments alone. -/
theorem W2_v0 : (W2 m ρ c (Proc.devRef .tc main_v0) : SBatch.Idx → EReal) = aX m c :=
  ((W2_arr m ρ c 0).trans (((dat0 (V1 m ρ) c).arrAt_in 0 rfl _).trans (A_eq0 (V1 m ρ) c 0))).trans (W1_v0 m ρ c)
theorem W2_arg1 : (W2 m ρ c (Proc.devRef .tc main_arg1) : SWeight.Idx → EReal) = aW m c :=
  (W2_of_ne m ρ c main_arg1 (by decide)).trans ((W1_of m ρ c main_arg1 (by decide)).trans rfl)
theorem W2_arg2 : (W2 m ρ c (Proc.devRef .tc main_arg2) : SUnit.Idx → EReal) = aT m c :=
  (W2_of_ne m ρ c main_arg2 (by decide)).trans ((W1_of m ρ c main_arg2 (by decide)).trans rfl)

/-! GIVEN that the first region's output is the activity (the first value leg), the second region finds: -/
section
variable (h2 : (W2 m ρ c (Proc.devRef .tc main_v2) : SBatch.Idx → EReal) = outArr (aX m c) (aW m c))
include h2

theorem W3_v10 : (W3 m ρ c (Proc.devRef .tc main_v10) : SUnit.Idx → EReal) = nthrArr (aX m c) (aW m c) (aT m c) :=
  Host.thr_v10 (W2 m ρ c) _ _ _ h2 (W2_arg2 m ρ c)
theorem V3_v11 (j : (⟨2, ![1, 4096]⟩ : Shape).Idx) :
    (V3 m ρ c main_v11 : (⟨2, ![1, 4096]⟩ : Shape).Idx → EReal) j = nthr (aX m c) (aW m c) (aT m c) (j 1) :=
  Host.thr_v11 (W2 m ρ c) _ _ _ h2 (W2_arg2 m ρ c) j
theorem V3_v11_ix2 (u : Fin 1) (o : Fin 4096) :
    (V3 m ρ c main_v11 : (⟨2, ![1, 4096]⟩ : Shape).Idx → EReal) (ix2 u o) = nthr (aX m c) (aW m c) (aT m c) o :=
  Host.thr_v11_ix2 (W2 m ρ c) _ _ _ h2 (W2_arg2 m ρ c) u o
theorem V3_v2 : (V3 m ρ c main_v2 : SBatch.Idx → EReal) = outArr (aX m c) (aW m c) :=
  (W3_of m ρ c main_v2 (by decide)).trans h2
omit h2 in
theorem V3_v0 : (V3 m ρ c main_v0 : SBatch.Idx → EReal) = aX m c :=
  (W3_of m ρ c main_v0 (by decide)).trans (W2_v0 m ρ c)
omit h2 in
theorem V3_arg1 : (V3 m ρ c main_arg1 : SWeight.Idx → EReal) = aW m c :=
  (W3_of m ρ c main_arg1 (by decide)).trans (W2_arg1 m ρ c)

/-- At the end: the activity is still where the first region left it, and the new threshold where the host wrote it. -/
theorem W4_v2 : (W4 m ρ c (Proc.devRef .tc main_v2) : SBatch.Idx → EReal) = outArr (aX m c) (aW m c) :=
  ((W4_arr m ρ c 2).trans (((dat1 (V3 m ρ) c).arrAt_in 2 rfl _).trans (A_eq1 (V3 m ρ) c 2))).trans (V3_v2 m ρ c h2)
theorem W4_v10 : (W4 m ρ c (Proc.devRef .tc main_v10) : SUnit.Idx → EReal) = nthrArr (aX m c) (aW m c) (aT m c) :=
  (W4_of_ne m ρ c main_v10 (by decide)).trans (W3_v10 m ρ c h2)
end

end Cert.KernelIdeal.Reads

end
-- ==== Proof.LibDotNT.lean ====
/-
  A product of an M×K matrix with the TRANSPOSE of an N×K matrix, read at an entry.

  With the contraction taken over the last axis of both operands, entry (p, q) of the result is the sum over k of
  l (p, k) · r (q, k). Over the extended reals, with exact operations, this holds of the matrix unit's product into a
  zero accumulator and of the host's general dot product alike, for all extents M, K, N: there is no rounding and no
  order of summation left in either.
-/
import Idealize.ShloMosaic.PureOps.Ideal.Laws
import Idealize.ShloMosaic.Lib.ValueIdx

open scoped BigOperators

noncomputable section

namespace Cert.Lib.DotNT

open Idealize.ShloMosaic Idealize.ShloMosaic.ValueIdx

variable {M K N : Nat}

/-- The left operand is read at the result's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and at the contraction position; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand at the result's column, as ITS row, … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and at the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the one-axis contraction shape, as a sum over `Fin K` of the operands at (p, k) and (q, k). -/
theorem sum_contr {φ₁ φ₂ : FTy} (l : FVec Ideal (⟨2, ![M, K]⟩ : Shape) φ₁) (r : FVec Ideal (⟨2, ![N, K]⟩ : Shape) φ₂)
    (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- The matrix unit's product into a zero accumulator, at entry (p, q). -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply _ prec l r (ix2 p q)).trans (sum_contr l r p q)

/-- The host's general dot product, at entry (p, q). -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply _ prec sched l r (ix2 p q)).trans (sum_contr l r p q)

end Cert.Lib.DotNT

end
-- ==== Proof.BlockSums.lean ====
/-
  Sums taken block by block.

  A sum over the first n·B naturals can be accumulated B terms at a time: start from z, and at step n add the sum of
  the B terms f (n·B), …, f (n·B + B − 1); after n steps the accumulator holds z plus the sum of f over the first n·B
  naturals. This is associativity and commutativity of addition only, so it holds in every commutative additive monoid
  (the extended reals are one: no finiteness is needed), and it is the whole content of "summing a long axis one block
  at a time gives the sum over the axis".

  Stated four ways: as one double sum over blocks and positions (`sum_range_blocks`); for a function of the natural position (`acc_eq_sum_range`); for a sum over `Fin (A * B)`
  against the sum over `range (A * B)` (`sum_fin_eq_sum_range`); and for a function of the position as an element of
  `Fin (A * B)`, which is the form an array's axis comes in (`acc_eq_sum_fin`). Then the two instances used here:
  4096 = 8 blocks of 512 and 8192 = 32 blocks of 256.
-/
import Mathlib.Algebra.BigOperators.Fin
import Mathlib.Algebra.BigOperators.Intervals

open scoped BigOperators

namespace Cert.Lib.BlockSums

variable {M : Type*} [AddCommMonoid M]

/-- (i) Accumulating B terms at a time: if `acc 0 = z` and each of the first N steps adds the next block's sum, then
    for every `n ≤ N` the accumulator after n steps is z plus the sum of f over the first n·B naturals. -/
theorem acc_eq_sum_range_le (B N : ℕ) (f : ℕ → M) (z : M) (acc : ℕ → M) (h0 : acc 0 = z)
    (hs : ∀ n, n < N → acc (n + 1) = acc n + ∑ j : Fin B, f (n * B + j.val)) :
    ∀ n, n ≤ N → acc n = z + ∑ k ∈ Finset.range (n * B), f k := by
  intro n
  induction n with
  | zero => intro _; rw [h0, Nat.zero_mul, Finset.range_zero, Finset.sum_empty, add_zero]
  | succ n ih =>
    intro hn
    rw [hs n (Nat.lt_of_succ_le hn), ih (Nat.le_of_succ_le hn), Nat.succ_mul, Finset.sum_range_add, add_assoc,
      Fin.sum_univ_eq_sum_range (fun j => f (n * B + j)) B]

/-- (i), every step adding its block: after n steps the accumulator is z plus the sum of f over the first n·B naturals. -/
theorem acc_eq_sum_range (B : ℕ) (f : ℕ → M) (z : M) (acc : ℕ → M) (h0 : acc 0 = z)
    (hs : ∀ n, acc (n + 1) = acc n + ∑ j : Fin B, f (n * B + j.val)) (n : ℕ) :
    acc n = z + ∑ k ∈ Finset.range (n * B), f k :=
  acc_eq_sum_range_le B n f z acc h0 (fun k _ => hs k) n le_rfl

/-- (ii) A sum over `Fin (A * B)` of a function of the value is the sum over `range (A * B)`. -/
theorem sum_fin_eq_sum_range (A B : ℕ) (g : ℕ → M) : ∑ i : Fin (A * B), g i.val = ∑ k ∈ Finset.range (A * B), g k :=
  Fin.sum_univ_eq_sum_range g (A * B)

/-- Position j of block n, of A blocks of B, is a position below A·B. -/
theorem blockPos_lt {A B n : ℕ} (hn : n < A) (j : Fin B) : n * B + j.val < A * B :=
  calc n * B + j.val < n * B + B := Nat.add_lt_add_left j.isLt _
    _ = (n + 1) * B := (Nat.succ_mul n B).symm
    _ ≤ A * B := Nat.mul_le_mul_right B hn

/-- The same accumulation for a function g of the position as an element of `Fin (A * B)`: if `acc 0 = z` and step
    `n < A` adds the sum over j of g at position n·B + j, then after the A steps the accumulator is z plus the sum of g
    over all of `Fin (A * B)`. -/
theorem acc_eq_sum_fin (A B : ℕ) (g : Fin (A * B) → M) (z : M) (acc : ℕ → M) (h0 : acc 0 = z)
    (hs : ∀ n (hn : n < A), acc (n + 1) = acc n + ∑ j : Fin B, g ⟨n * B + j.val, blockPos_lt hn j⟩) :
    acc A = z + ∑ i : Fin (A * B), g i := by
  have key := acc_eq_sum_range_le B A (fun k => if h : k < A * B then g ⟨k, h⟩ else 0) z acc h0
    (fun n hn => by
      rw [hs n hn]
      refine congrArg (acc n + ·) (Finset.sum_congr rfl fun j _ => ?_)
      rw [dif_pos (blockPos_lt hn j)]) A le_rfl
  rw [key, ← sum_fin_eq_sum_range A B (fun k => if h : k < A * B then g ⟨k, h⟩ else 0)]
  refine congrArg (z + ·) (Finset.sum_congr rfl fun i _ => ?_)
  rw [dif_pos i.isLt]

/-- The double sum, over the A blocks and over the B positions inside a block, of f at position s·B + j is the sum of f
    over all of `Fin (A * B)`: the accumulation above started from zero and written as one sum over the blocks. -/
theorem sum_range_blocks (A B : ℕ) (f : ℕ → M) :
    ∑ s ∈ Finset.range A, ∑ j : Fin B, f (s * B + j.val) = ∑ i : Fin (A * B), f i.val :=
  (acc_eq_sum_range B f 0 (fun n => ∑ s ∈ Finset.range n, ∑ j : Fin B, f (s * B + j.val))
      (Finset.sum_range_zero _) (fun n => Finset.sum_range_succ (fun s => ∑ j : Fin B, f (s * B + j.val)) n) A).trans
    ((zero_add _).trans (sum_fin_eq_sum_range A B f).symm)

/-! ## The two instances: 4096 = 8 · 512 and 8192 = 32 · 256 -/

/-- Eight blocks of 512 as one double sum: the sum over `Fin 4096`. -/
theorem sum_range_blocks_8x512 (f : ℕ → M) :
    ∑ s ∈ Finset.range 8, ∑ j : Fin 512, f (s * 512 + j.val) = ∑ i : Fin 4096, f i.val :=
  sum_range_blocks 8 512 f

/-- Thirty-two blocks of 256 as one double sum: the sum over `Fin 8192`. -/
theorem sum_range_blocks_32x256 (f : ℕ → M) :
    ∑ s ∈ Finset.range 32, ∑ j : Fin 256, f (s * 256 + j.val) = ∑ i : Fin 8192, f i.val :=
  sum_range_blocks 32 256 f

/-- A sum over `Fin 4096` of a function of the value is the sum over the first 8 · 512 naturals. -/
theorem sum_fin_4096 (g : ℕ → M) : ∑ i : Fin 4096, g i.val = ∑ k ∈ Finset.range (8 * 512), g k :=
  sum_fin_eq_sum_range 8 512 g

/-- A sum over `Fin 8192` of a function of the value is the sum over the first 32 · 256 naturals. -/
theorem sum_fin_8192 (g : ℕ → M) : ∑ i : Fin 8192, g i.val = ∑ k ∈ Finset.range (32 * 256), g k :=
  sum_fin_eq_sum_range 32 256 g

/-- Eight blocks of 512, for a function of the natural position: the accumulator ends at z plus the sum over `Fin 4096`. -/
theorem acc_8x512 (f : ℕ → M) (z : M) (acc : ℕ → M) (h0 : acc 0 = z)
    (hs : ∀ n, n < 8 → acc (n + 1) = acc n + ∑ j : Fin 512, f (n * 512 + j.val)) :
    acc 8 = z + ∑ i : Fin 4096, f i.val :=
  (acc_eq_sum_range_le 512 8 f z acc h0 hs 8 le_rfl).trans (congrArg (z + ·) (sum_fin_4096 f).symm)

/-- Thirty-two blocks of 256, for a function of the natural position: the accumulator ends at z plus the sum over
    `Fin 8192`. -/
theorem acc_32x256 (f : ℕ → M) (z : M) (acc : ℕ → M) (h0 : acc 0 = z)
    (hs : ∀ n, n < 32 → acc (n + 1) = acc n + ∑ j : Fin 256, f (n * 256 + j.val)) :
    acc 32 = z + ∑ i : Fin 8192, f i.val :=
  (acc_eq_sum_range_le 256 32 f z acc h0 hs 32 le_rfl).trans (congrArg (z + ·) (sum_fin_8192 f).symm)

/-- Eight blocks of 512, for a function of the position in `Fin 4096`. -/
theorem acc_8x512_fin (g : Fin 4096 → M) (z : M) (acc : ℕ → M) (h0 : acc 0 = z)
    (hs : ∀ n (hn : n < 8), acc (n + 1) = acc n + ∑ j : Fin 512, g ⟨n * 512 + j.val, blockPos_lt (A := 8) hn j⟩) :
    acc 8 = z + ∑ i : Fin 4096, g i :=
  acc_eq_sum_fin 8 512 g z acc h0 hs

/-- Thirty-two blocks of 256, for a function of the position in `Fin 8192`. -/
theorem acc_32x256_fin (g : Fin 8192 → M) (z : M) (acc : ℕ → M) (h0 : acc 0 = z)
    (hs : ∀ n (hn : n < 32), acc (n + 1) = acc n + ∑ j : Fin 256, g ⟨n * 256 + j.val, blockPos_lt (A := 32) hn j⟩) :
    acc 32 = z + ∑ i : Fin 8192, g i :=
  acc_eq_sum_fin 32 256 g z acc h0 hs

end Cert.Lib.BlockSums
-- ==== Proof.KernelIdealOutValue.lean ====
/-
  The first region's result array, read as a value: out = x · wᵀ.

  x is 8192 × 4096, w is 4096 × 4096, and the contraction runs over the last axis of both. The region accumulates each
  2048 × 1024 output block over eight slices of 512 positions of the contracted axis; this module opens that accumulation
  at an entry, sums the eight slices into one sum over the 4096 positions, and shows that the sixteen blocks, each written
  back once complete, tile the array.
-/
import proofs.«124577_j81003083202674_2_alg».proof.Proof.KernelIdealOutBody
import proofs.«124577_j81003083202674_2_alg».proof.Proof.LibDotNT
import proofs.«124577_j81003083202674_2_alg».proof.Proof.BlockSums
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.OutValue

open Cert.KernelIdeal Cert.KernelIdeal.Gen Cert.KernelIdeal.OutBody
open Idealize.ShloMosaic Idealize.ShloMosaic.TcCoe Idealize.ShloMosaic.ValueIdx
open Idealize.SL.Sem
open Idealize.ShloMosaic.Pipeline (Dat Cfg Window)

/-! # The first region's result array: `out = x · wᵀ`, entry by entry

The region walks a 4 × 4 × 8 grid; point `t = 32·i + 8·j + k` works on the block of rows `2048·i …` of `x`, the block of
rows `1024·j …` of `w` and slice `512·k …` of the contracted axis, and leaves in the output block `(i, j)` what the
point before left there plus the product of the two slices (zero plus that product when `k = 0`). After the eighth slice the
block holds, at entry `(p, q)`, the sum over all 4096 positions of the contracted axis of `x (2048·i + p, ·) · w (1024·j + q, ·)`,
and that is when it is written back. The sixteen blocks tile the array, so the array ends holding `x · wᵀ`. -/

/-- A float buffer's contents at the ideal values, as a function to the extended reals. -/
abbrev asE {S : Shape} (f : S.Idx → EReal) : S.Idx → EReal := f

section
variable (V : (c : Dev nD) → (b : Ref sig .tc) → Buf (Elt Ideal) ((c : Thread nD τ).loc b)) (c : Dev nD)

/-- THE RESULT: entry `(r, s)` is the sum over the contracted axis of `x (r, k) · w (s, k)`. -/
def G0 : S8192x4096.Idx → EReal :=
  fun i => ∑ k : Fin 4096, asE (S := S8192x4096) (V c main_v0) (ix2 (i 0) k) * asE (S := S4096x4096) (V c main_v1) (ix2 (i 1) k)

theorem G0_apply (i : S8192x4096.Idx) :
    G0 V c i = ∑ k : Fin 4096, asE (S := S8192x4096) (V c main_v0) (ix2 (i 0) k) * asE (S := S4096x4096) (V c main_v1) (ix2 (i 1) k) := rfl

/-! ## The payloads at an entry -/

/-- The matrix unit's dimension record is the one for a right factor contracted on its last axis. -/
theorem dot_eq : dot_S2048x512_S1024x512_S2048x1024_1_1_0_0_n_n = DotDims.transposedRhs 2048 512 1024 := rfl

/-- The zero block is zero at every entry. -/
theorem pay1_apply (j : S2048x1024.Idx) : k0_pay1 (F := Ideal) j = 0 := by
  unfold k0_pay1
  exact Ideal.ofBits_zero_f32

/-- One step: entry `(p, q)` of the accumulator plus the sum over the slice of `x0 (p, k) · x1 (q, k)`. -/
theorem pay2_apply (acc : Vec Ideal S2048x1024 .f32) (x0 : Vec Ideal S2048x512 .bf16) (x1 : Vec Ideal S1024x512 .bf16)
    (p : Fin 2048) (q : Fin 1024) :
    k0_pay2 (F := Ideal) acc x0 x1 (ix2 p q) = acc (ix2 p q) + ∑ k : Fin 512, x0 (ix2 p k) * x1 (ix2 q k) := by
  unfold k0_pay2
  refine (addf_apply _ _ (ix2 p q)).trans ?_
  refine congrArg₂ (· + ·) (congrFun (shapeCast_self acc _) (ix2 p q)) ?_
  refine Eq.trans ?_ (Cert.Lib.DotNT.matmul_zero_apply (M := 2048) (K := 512) (N := 1024) (φ₁ := .bf16) (φ₂ := .bf16) none x0 x1 p q)
  exact congrArg₂ (fun (a : FVec Ideal S2048x512 .bf16) (b : FVec Ideal S1024x512 .bf16) =>
      FloatOps.matmul (DotDims.transposedRhs 2048 512 1024) none a b
        (constant (⟨2, ![2048, 1024]⟩ : Shape) .f32 0x00000000#32) (ix2 p q)) (shapeCast_self x0 _) (shapeCast_self x1 _)

/-! ## Which blocks a point works on -/

/-- The three index maps, decided once over the grid: point `t` reads block `(t / 32, t % 8)` of `x` and block
    `(t / 8 % 4, t % 8)` of `w`, and works on block `(t / 32, t / 8 % 4)` of the output. -/
theorem idx_facts : ∀ t : Fin cfg0.N, win0_0.index t (0 : Fin 2) = t.val / 32 ∧ win0_0.index t (1 : Fin 2) = t.val % 8
    ∧ win0_1.index t (0 : Fin 2) = (t.val / 8) % 4 ∧ win0_1.index t (1 : Fin 2) = t.val % 8
    ∧ win0_2.index t (0 : Fin 2) = t.val / 32 ∧ win0_2.index t (1 : Fin 2) = (t.val / 8) % 4 :=
  (by decide +kernel : ∀ t : Fin grid0.N, _)

/-- `x` at natural coordinates (zero outside the array): sums over slices of the contracted axis are re-indexed over
    the naturals. -/
def xN (r k : ℕ) : EReal :=
  if h : r < 8192 ∧ k < 4096 then asE (S := S8192x4096) (V c main_v0) (ix2 ⟨r, h.1⟩ ⟨k, h.2⟩) else 0
/-- `w` at natural coordinates (zero outside the array). -/
def wN (r k : ℕ) : EReal :=
  if h : r < 4096 ∧ k < 4096 then asE (S := S4096x4096) (V c main_v1) (ix2 ⟨r, h.1⟩ ⟨k, h.2⟩) else 0

theorem xN_eq (r : Fin 8192) (k : Fin 4096) : xN V c r.val k.val = asE (S := S8192x4096) (V c main_v0) (ix2 r k) := by
  unfold xN; rw [dif_pos ⟨r.isLt, k.isLt⟩]
theorem wN_eq (r : Fin 4096) (k : Fin 4096) : wN V c r.val k.val = asE (S := S4096x4096) (V c main_v1) (ix2 r k) := by
  unfold wN; rw [dif_pos ⟨r.isLt, k.isLt⟩]

/-- The block of `x` at point `t`: rows from `2048·(t / 32)`, columns from `512·(t % 8)`. -/
theorem iblk0_0_apply (t : Fin cfg0.N) (p : Fin 2048) (k : Fin 512) :
    (iblk0 V c 0 t : Vec Ideal S2048x512 .bf16) (ix2 p k) = xN V c (2048 * (t.val / 32) + p.val) (512 * (t.val % 8) + k.val) := by
  have hN : t.val < 128 := lt_of_lt_of_eq t.isLt (show cfg0.N = 128 from N_0)
  obtain ⟨e0, e1, -⟩ := idx_facts t
  unfold xN
  rw [dif_pos ⟨by omega, by omega⟩]
  show V c main_v0 (((cfg0.win 0).blk t).view.emb (ix2 p k)) = V c main_v0 _
  refine congrArg (V c main_v0) (funext fun a => Fin.ext ?_)
  match a with
  | ⟨0, _⟩ => show win0_0.index t (0 : Fin 2) * 2048 + 1 * p.val = 2048 * (t.val / 32) + p.val; rw [e0]; omega
  | ⟨1, _⟩ => show win0_0.index t (1 : Fin 2) * 512 + 1 * k.val = 512 * (t.val % 8) + k.val; rw [e1]; omega

/-- The block of `w` at point `t`: rows from `1024·(t / 8 % 4)`, columns from `512·(t % 8)`. -/
theorem iblk0_1_apply (t : Fin cfg0.N) (q : Fin 1024) (k : Fin 512) :
    (iblk0 V c 1 t : Vec Ideal S1024x512 .bf16) (ix2 q k) = wN V c (1024 * (t.val / 8 % 4) + q.val) (512 * (t.val % 8) + k.val) := by
  have hN : t.val < 128 := lt_of_lt_of_eq t.isLt (show cfg0.N = 128 from N_0)
  obtain ⟨-, -, e2, e3, -⟩ := idx_facts t
  unfold wN
  rw [dif_pos ⟨by omega, by omega⟩]
  show V c main_v1 (((cfg0.win 1).blk t).view.emb (ix2 q k)) = V c main_v1 _
  refine congrArg (V c main_v1) (funext fun a => Fin.ext ?_)
  match a with
  | ⟨0, _⟩ => show win0_1.index t (0 : Fin 2) * 1024 + 1 * q.val = 1024 * (t.val / 8 % 4) + q.val; rw [e2]; omega
  | ⟨1, _⟩ => show win0_1.index t (1 : Fin 2) * 512 + 1 * k.val = 512 * (t.val % 8) + k.val; rw [e3]; omega

/-! ## The fold over the eight slices -/

/-- What point `n` adds at entry `j` of its output block: the product of its two slices. -/
def addend (n : ℕ) (j : S2048x1024.Idx) : EReal :=
  ∑ k : Fin 512, xN V c (2048 * (n / 32) + (j 0).val) (512 * (n % 8) + k.val) * wN V c (1024 * (n / 8 % 4) + (j 1).val) (512 * (n % 8) + k.val)

/-- One step of the accumulation at an entry: what was there plus the point's addend. -/
theorem step_apply (acc : Vec Ideal S2048x1024 .f32) (t : Fin cfg0.N) (j : S2048x1024.Idx) :
    k0_pay2 (F := Ideal) acc (iblk0 V c 0 t) (iblk0 V c 1 t) j = acc j + addend V c t.val j := by
  obtain ⟨p, q, rfl⟩ : ∃ (p : Fin 2048) (q : Fin 1024), j = ix2 p q := ⟨j 0, j 1, eq_ix2 j⟩
  refine (pay2_apply acc (iblk0 V c 0 t) (iblk0 V c 1 t) p q).trans ?_
  unfold addend
  refine congrArg (acc (ix2 p q) + ·) (Finset.sum_congr rfl fun k _ => ?_)
  exact congrArg₂ (· * ·) (iblk0_0_apply V c t p k) (iblk0_1_apply V c t q k)

/-- AFTER THE EIGHTH SLICE the output block holds, at entry `j`, the sum over the whole contracted axis: the run of
    eight points is a fold that starts from zero and adds one slice's product per point, and eight slices of 512 are the
    4096 positions of the axis. -/
theorem acc_flush (t : Fin cfg0.N) (h7 : t.val % 8 = 7) (j : S2048x1024.Idx) :
    accAt0 V c t.val t.isLt j
      = ∑ k : Fin 4096, xN V c (2048 * (t.val / 32) + (j 0).val) k.val * wN V c (1024 * (t.val / 8 % 4) + (j 1).val) k.val := by
  have hN : cfg0.N = 128 := N_0
  have ht : t.val < 128 := lt_of_lt_of_eq t.isLt hN
  have h' : 8 * (t.val / 8) + t.val % 8 < cfg0.N := by rw [Nat.div_add_mod]; exact t.isLt
  have e := Pipeline.eq_accAt_of_mod (N := cfg0.N) (fun n hn => accAt0 V c n hn) 8
      (fun n hn => k0_pay2 (F := Ideal) (k0_pay1 (F := Ideal)) (iblk0 V c 0 ⟨n, hn⟩) (iblk0 V c 1 ⟨n, hn⟩))
      (fun n hn acc => k0_pay2 (F := Ideal) acc (iblk0 V c 0 ⟨n, hn⟩) (iblk0 V c 1 ⟨n, hn⟩))
      (fun n hn h0 => accAt0_reset V c ⟨n, hn⟩ h0)
      (fun n hn hne => accAt0_add V c ⟨n + 1, hn⟩ hne)
      (by decide) t.val t.isLt h'
  refine (congrFun e j).trans ?_
  have e2 := Pipeline.accAt_add_apply (N := cfg0.N) (ι := S2048x1024.Idx) (β := EReal)
      (fun n hn => k0_pay2 (F := Ideal) (k0_pay1 (F := Ideal)) (iblk0 V c 0 ⟨n, hn⟩) (iblk0 V c 1 ⟨n, hn⟩))
      (fun n hn acc => k0_pay2 (F := Ideal) acc (iblk0 V c 0 ⟨n, hn⟩) (iblk0 V c 1 ⟨n, hn⟩))
      (fun _ => 0) (fun n i => addend V c n i) (8 * (t.val / 8)) 7
      (fun h i => (step_apply V c (k0_pay1 (F := Ideal)) ⟨8 * (t.val / 8), h⟩ i).trans (congrArg (· + addend V c (8 * (t.val / 8)) i) (pay1_apply i)))
      (fun n h acc i _ _ => step_apply V c acc ⟨n, h⟩ i) (t.val % 8) (by omega) h' j
  refine e2.trans ?_
  rw [h7, zero_add]
  refine Eq.trans (Finset.sum_congr rfl fun s hs => ?_)
    (Cert.Lib.BlockSums.sum_range_blocks_8x512
      (fun m => xN V c (2048 * (t.val / 32) + (j 0).val) m * wN V c (1024 * (t.val / 8 % 4) + (j 1).val) m))
  have hs8 : s < 8 := Finset.mem_range.mp hs
  have a1 : (8 * (t.val / 8) + s) / 32 = t.val / 32 := by omega
  have a2 : (8 * (t.val / 8) + s) % 8 = s := by omega
  have a3 : (8 * (t.val / 8) + s) / 8 % 4 = t.val / 8 % 4 := by omega
  unfold addend
  rw [a1, a2, a3, Nat.mul_comm 512 s]

/-! ## What a point writes back, the cover, and the array after the run -/

/-- WHAT A POINT WRITES BACK after its eighth slice is its block of `G0`. -/
theorem flushed_eq (t : Fin cfg0.N) (hf : (cfg0.win 2).flush t = true) :
    (dat0 V c).flushed 2 t = ((cfg0.win 2).blk t).view.read (Elt Ideal) (G0 V c) := by
  have h7 : t.val % 8 = 7 := (flush0_2 t).mp hf
  have hN : t.val < 128 := lt_of_lt_of_eq t.isLt (show cfg0.N = 128 from N_0)
  obtain ⟨-, -, -, -, e4, e5⟩ := idx_facts t
  show (cfg0.win 2).cut (grid0.coords t) ((dat0 V c).after 2 t) = _
  rw [after0_2]
  funext y
  have hp : (y 0).val < 2048 := (y 0).isLt
  have hq : (y 1).val < 1024 := (y 1).isLt
  have b0 : ((((cfg0.win 2).blk t).view.emb y) 0).val = 2048 * (t.val / 32) + (y 0).val := by
    show win0_2.index t (0 : Fin 2) * 2048 + 1 * (y 0).val = _; rw [e4]; omega
  have b1 : ((((cfg0.win 2).blk t).view.emb y) 1).val = 1024 * (t.val / 8 % 4) + (y 1).val := by
    show win0_2.index t (1 : Fin 2) * 1024 + 1 * (y 1).val = _; rw [e5]; omega
  show accAt0 V c t.val t.isLt (fun a => y a) = G0 V c (((cfg0.win 2).blk t).view.emb y)
  refine (acc_flush V c t h7 (fun a => y a)).trans ?_
  rw [G0_apply]
  refine Finset.sum_congr rfl fun k _ => ?_
  have r0 : 2048 * (t.val / 32) + (y 0).val < 8192 := by omega
  have r1 : 1024 * (t.val / 8 % 4) + (y 1).val < 4096 := by omega
  refine congrArg₂ (· * ·) ((xN_eq V c ⟨_, r0⟩ k).trans (congrArg (asE (S := S8192x4096) (V c main_v0)) ?_)) ((wN_eq V c ⟨_, r1⟩ k).trans (congrArg (asE (S := S4096x4096) (V c main_v1)) ?_))
  · exact funext fun a => Fin.ext (by
      match a with
      | ⟨0, _⟩ => exact b0.symm
      | ⟨1, _⟩ => rfl)
  · exact funext fun a => Fin.ext (by
      match a with
      | ⟨0, _⟩ => exact b1.symm
      | ⟨1, _⟩ => rfl)

/-- An entry of the array lies in point `t`'s output block iff each coordinate lies in the block's range on its axis. -/
theorem mem_blk (t : Fin cfg0.N) (i : S8192x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v2).slice (win0_2.rect t)).set ↔ _
  rw [View.set_slice_whole, Rect.mem_set_unit]
  exact Iff.rfl

/-- THE COVER: entry `(r, s)` lies in the block written back by the point `32·(r / 2048) + 8·(s / 1024) + 7`. -/
theorem cover (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  have hlt : 32 * ((i 0).val / 2048) + 8 * ((i 1).val / 1024) + 7 < cfg0.N := by rw [hN]; omega
  refine ⟨⟨32 * ((i 0).val / 2048) + 8 * ((i 1).val / 1024) + 7, hlt⟩, (flush0_2 _).mpr (by show (32 * ((i 0).val / 2048) + 8 * ((i 1).val / 1024) + 7) % 8 = 7; omega), ?_⟩
  obtain ⟨-, -, -, -, e4, e5⟩ := idx_facts ⟨32 * ((i 0).val / 2048) + 8 * ((i 1).val / 1024) + 7, hlt⟩
  rw [mem_blk]
  intro a
  match a with
  | ⟨0, _⟩ =>
    show win0_2.index _ (0 : Fin 2) * 2048 ≤ (i 0).val ∧ (i 0).val < win0_2.index _ (0 : Fin 2) * 2048 + 2048
    rw [e4]; show (32 * ((i 0).val / 2048) + 8 * ((i 1).val / 1024) + 7) / 32 * 2048 ≤ (i 0).val ∧ (i 0).val < (32 * ((i 0).val / 2048) + 8 * ((i 1).val / 1024) + 7) / 32 * 2048 + 2048
    omega
  | ⟨1, _⟩ =>
    show win0_2.index _ (1 : Fin 2) * 1024 ≤ (i 1).val ∧ (i 1).val < win0_2.index _ (1 : Fin 2) * 1024 + 1024
    rw [e5]; show (32 * ((i 0).val / 2048) + 8 * ((i 1).val / 1024) + 7) / 8 % 4 * 1024 ≤ (i 1).val ∧ (i 1).val < (32 * ((i 0).val / 2048) + 8 * ((i 1).val / 1024) + 7) / 8 % 4 * 1024 + 1024
    omega

/-- THE ARRAY AFTER THE RUN: the output's blocks tile it and each is written back once complete, so it ends holding
    `x · wᵀ`. -/
theorem out_final : (dat0 V c).arrAt 2 cfg0.N = G0 V c :=
  (dat0 V c).arrAt_eq_of_cover 2 (G0 V c) (flushed_eq V c) (cover)

end

end Cert.KernelIdeal.OutValue

end
-- ==== Proof.LibDotTN.lean ====
/-
  A product of the TRANSPOSE of a K×M matrix with a K×N matrix, read at an entry.

  With the contraction taken over the first axis of both operands, entry (p, q) of the result is the sum over k of
  l (k, p) · r (k, q). Over the extended reals, with exact operations, this holds of the matrix unit's product into a
  zero accumulator and of the host's general dot product alike, for all extents K, M, N: there is no rounding and no
  order of summation left in either.
-/
import Idealize.ShloMosaic.PureOps.Ideal.Laws
import Idealize.ShloMosaic.Lib.ValueIdx

open scoped BigOperators

noncomputable section

namespace Cert.Lib.DotTN

open Idealize.ShloMosaic Idealize.ShloMosaic.ValueIdx

/-- The dimension numbers of lᵀ · r for l : K×M and r : K×N: both operands contracted on their first axis, the second
    axis of each kept, no batch axis. The result is M×N. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : Nat}

/-- Any record of dimension numbers with these six lists is `dims K M N`: the seventh field is a proof. -/
theorem eq_dims (D : DotDims ⟨2, ![K, M]⟩ ⟨2, ![K, N]⟩ ⟨2, ![M, N]⟩)
    (hlc : D.lhsContracting = [0]) (hrc : D.rhsContracting = [0]) (hln : D.lhsNonContracting = [1])
    (hrn : D.rhsNonContracting = [1]) (hlb : D.lhsBatch = []) (hrb : D.rhsBatch = []) : D = dims K M N := by
  obtain ⟨lc, rc, ln, rn, lb, rb, wf⟩ := D
  simp only at hlc hrc hln hrn hlb hrb
  subst hlc hrc hln hrn hlb hrb
  rfl

/-- The left operand is read at the contraction position … -/
theorem lhs_row (j : (⟨2, ![M, N]⟩ : Shape).Idx) (k : (dims K M N).contr.Idx) :
    ((dims K M N).lhsIdx j k 0).val = (k ⟨0, Nat.one_pos⟩).val :=
  (dims K M N).lhsIdx_val_of_single rfl j k

/-- … and at the result's row, as ITS column; -/
theorem lhs_col (j : (⟨2, ![M, N]⟩ : Shape).Idx) (k : (dims K M N).contr.Idx) :
    ((dims K M N).lhsIdx j k 1).val = (j 0).val := by
  unfold DotDims.lhsIdx
  rw [dif_neg (show ¬(1 : Fin (⟨2, ![K, M]⟩ : Shape).rank) ∈ (dims K M N).lhsBatch from List.not_mem_nil),
    dif_pos (show (1 : Fin (⟨2, ![K, M]⟩ : Shape).rank) ∈ (dims K M N).lhsNonContracting from List.mem_singleton.mpr rfl)]
  rfl

/-- the right operand at the contraction position … -/
theorem rhs_row (j : (⟨2, ![M, N]⟩ : Shape).Idx) (k : (dims K M N).contr.Idx) :
    ((dims K M N).rhsIdx j k 0).val = (k ⟨0, Nat.one_pos⟩).val :=
  (dims K M N).rhsIdx_val_of_single rfl j k

/-- … and at the result's column. -/
theorem rhs_col (j : (⟨2, ![M, N]⟩ : Shape).Idx) (k : (dims K M N).contr.Idx) :
    ((dims K M N).rhsIdx j k 1).val = (j 1).val := by
  unfold DotDims.rhsIdx
  rw [dif_neg (show ¬(1 : Fin (⟨2, ![K, N]⟩ : Shape).rank) ∈ (dims K M N).rhsBatch from List.not_mem_nil),
    dif_pos (show (1 : Fin (⟨2, ![K, N]⟩ : Shape).rank) ∈ (dims K M N).rhsNonContracting from List.mem_singleton.mpr rfl)]
  rfl

/-- The sum over the one-axis contraction shape, as a sum over `Fin K` of the operands at (k, p) and (k, q). -/
theorem sum_contr {φ₁ φ₂ : FTy} (l : FVec Ideal (⟨2, ![K, M]⟩ : Shape) φ₁) (r : FVec Ideal (⟨2, ![K, N]⟩ : Shape) φ₂)
    (p : Fin M) (q : Fin N) :
    (∑ k : (dims K M N).contr.Idx, l ((dims K M N).lhsIdx (ix2 p q) k) * r ((dims K M N).rhsIdx (ix2 p q) k))
      = ∑ k : Fin K, l (ix2 k p) * r (ix2 k q) := by
  rw [← Equiv.sum_comp (contrEquiv1 (dims K M N) K rfl rfl).symm]
  refine Finset.sum_congr rfl fun k _ => ?_
  have hk := contrEquiv1_symm_val (dims K M N) K rfl rfl k
  have el : (dims K M N).lhsIdx (ix2 p q) ((contrEquiv1 (dims K M N) K rfl rfl).symm k) = ix2 k p :=
    funext fun a => Fin.ext (by
      match a with
      | ⟨0, _⟩ => exact (lhs_row _ _).trans hk
      | ⟨1, _⟩ => exact lhs_col _ _)
  have er : (dims K M N).rhsIdx (ix2 p q) ((contrEquiv1 (dims K M N) K rfl rfl).symm k) = ix2 k q :=
    funext fun a => Fin.ext (by
      match a with
      | ⟨0, _⟩ => exact (rhs_row _ _).trans hk
      | ⟨1, _⟩ => exact rhs_col _ _)
  rw [el, er]

/-- The matrix unit's product into a zero accumulator, at entry (p, q): the sum over k of l (k, p) · r (k, q). -/
theorem matmul_zero_apply {φ₁ φ₂ : FTy} (prec : Option ContractPrecision)
    (l : FVec Ideal (⟨2, ![K, M]⟩ : Shape) φ₁) (r : FVec Ideal (⟨2, ![K, N]⟩ : Shape) φ₂) (p : Fin M) (q : Fin N) :
    FloatOps.matmul (dims K M N) prec l r (constant (⟨2, ![M, N]⟩ : Shape) .f32 0x00000000#32) (ix2 p q)
      = ∑ k : Fin K, l (ix2 k p) * r (ix2 k q) :=
  (Ideal.matmul_constant_zero_apply _ prec l r (ix2 p q)).trans (sum_contr l r p q)

/-- The same for any record of dimension numbers with these lists (a program's own record, whatever proof it carries). -/
theorem matmul_zero_apply_of_fields {φ₁ φ₂ : FTy} (D : DotDims ⟨2, ![K, M]⟩ ⟨2, ![K, N]⟩ ⟨2, ![M, N]⟩)
    (hlc : D.lhsContracting = [0]) (hrc : D.rhsContracting = [0]) (hln : D.lhsNonContracting = [1])
    (hrn : D.rhsNonContracting = [1]) (hlb : D.lhsBatch = []) (hrb : D.rhsBatch = [])
    (prec : Option ContractPrecision)
    (l : FVec Ideal (⟨2, ![K, M]⟩ : Shape) φ₁) (r : FVec Ideal (⟨2, ![K, N]⟩ : Shape) φ₂) (p : Fin M) (q : Fin N) :
    FloatOps.matmul D prec l r (constant (⟨2, ![M, N]⟩ : Shape) .f32 0x00000000#32) (ix2 p q)
      = ∑ k : Fin K, l (ix2 k p) * r (ix2 k q) := by
  obtain rfl := eq_dims D hlc hrc hln hrn hlb hrb
  exact matmul_zero_apply prec l r p q

/-- The host's general dot product, at entry (p, q). -/
theorem dotGeneral_apply {φ₁ φ₂ : FTy} (prec : Option ContractPrecision) (sched : HostSchedule)
    (l : FVec Ideal (⟨2, ![K, M]⟩ : Shape) φ₁) (r : FVec Ideal (⟨2, ![K, N]⟩ : Shape) φ₂) (p : Fin M) (q : Fin N) :
    FloatOps.dotGeneral (dims K M N) prec sched l r (ix2 p q) = ∑ k : Fin K, l (ix2 k p) * r (ix2 k q) :=
  (Ideal.dotGeneral_apply _ prec sched l r (ix2 p q)).trans (sum_contr l r p q)

end Cert.Lib.DotTN

end
-- ==== Proof.KernelIdealUpdPay.lean ====
/-
  The second region's three payloads, read at an entry, on the extended reals.

  The body works on one tile of the batch (256 rows) and one tile of the output units (512 units). With y the tile of
  the layer's output [256, 512], th the row of new thresholds of the tile's units [1, 512], x the tile of the inputs
  [256, 4096] and acc the scratch block [512, 4096]:

    the reset value            is 0 at every entry;
    the accumulation step      leaves, at entry (p, q),  acc (p, q) + Σ_r max (y (r, p) − th (0, p)) 0 · x (r, q)
                               — the rectified activity, transposed, times the inputs, contracted over the tile's rows;
    the final store            leaves, at entry (p, q),  wt (p, q) + rate · acc (p, q).

  A change of float format is the identity here, a shape cast to the same shape is the identity, the broadcast of the
  threshold row along the rows reads the row at (0, p), and the matrix unit's product into a zero accumulator is the
  exact sum of products.
-/
import proofs.«124577_j81003083202674_2_alg».proof.Proof.Gen.KernelIdeal.Skeleton
import proofs.«124577_j81003083202674_2_alg».proof.Proof.LibDotTN
import proofs.«124577_j81003083202674_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.UpdValue

open Idealize.ShloMosaic Idealize.ShloMosaic.ValueIdx
open Cert.KernelIdeal Cert.KernelIdeal.Gen Cert.Plasticity

/-- The reset value: zero at every entry. -/
theorem pay1_apply (p : Fin 512) (q : Fin 4096) : k1_pay1 (F := Ideal) (ix2 p q) = 0 := by
  unfold k1_pay1
  simp only [shapeCast_self]
  exact Ideal.ofBits_zero_f32

/-- The threshold row broadcast along the tile's rows reads, at (r, p), the row at (0, p). -/
theorem bcastRow_apply (th : Vec Ideal S1x512 .f32) (h : S1x512.Broadcasts S256x512) (r : Fin 256) (p : Fin 512) :
    broadcastTo S256x512 th h (ix2 r p) = th (ix2 (0 : Fin 1) p) :=
  broadcastTo_apply th h (ix2 r p) (ix2 (0 : Fin 1) p) (fun a => match a with
    | ⟨0, _⟩ => by show (0 : Nat) = if (1 : Nat) = 1 then 0 else r.val; rw [if_pos rfl]
    | ⟨1, _⟩ => by show p.val = if (512 : Nat) = 1 then 0 else p.val; rw [if_neg (by decide)])

/-- The accumulation step at entry (p, q). -/
theorem pay2_apply (y : Vec Ideal S256x512 .f32) (th : Vec Ideal S1x512 .f32) (x : Vec Ideal S256x4096 .bf16)
    (acc : Vec Ideal S512x4096 .f32) (p : Fin 512) (q : Fin 4096) :
    k1_pay2 y th x acc (ix2 p q)
      = acc (ix2 p q) + ∑ r : Fin 256, max (y (ix2 r p) - th (ix2 (0 : Fin 1) p)) 0 * x (ix2 r q) := by
  unfold k1_pay2
  simp only [shapeCast_self]
  refine congrArg (acc (ix2 p q) + ·) ?_
  refine (Cert.Lib.DotTN.matmul_zero_apply_of_fields (K := 256) (M := 512) (N := 4096) (φ₁ := .bf16) (φ₂ := .bf16)
    dot_S256x512_S256x4096_S512x4096_0_0_1_1_n_n rfl rfl rfl rfl rfl rfl none _ _ p q).trans ?_
  refine Finset.sum_congr rfl fun r _ => congrArg (· * x (ix2 r q)) ?_
  show max (y (ix2 r p) - broadcastTo S256x512 th _ (ix2 r p)) (Ideal.ofBits .f32 0x00000000#32) = _
  rw [bcastRow_apply, Ideal.ofBits_zero_f32]

/-- The final store at entry (p, q). -/
theorem pay3_apply (wt acc : Vec Ideal S512x4096 .f32) (p : Fin 512) (q : Fin 4096) :
    k1_pay3 wt acc (ix2 p q) = wt (ix2 p q) + rate * acc (ix2 p q) := by
  unfold k1_pay3
  rfl

end Cert.KernelIdeal.UpdValue

end
-- ==== Proof.KernelIdealUpdValue.lean ====
/-
  The second region's result array: the new weights.

  The region walks a grid of 8 × 32 points: point t = 32·o' + b' works on the tile o' of 512 output units and the tile b'
  of 256 batch rows. At every point the body adds, into a scratch block, the product of the tile's rectified activity
  (transposed) with the tile of the inputs; the scratch is reset to zero at b' = 0, and at b' = 31 the block
  weight + rate · scratch is stored and written back as rows 512·o' … 512·o' + 511 of the result.

  So at the last tile the scratch holds, at entry (p, q), the sum over the 32 batch tiles s and the 256 rows r of a tile of
  max (out (256·s + r, 512·o' + p) − thr (512·o' + p)) 0 · x (256·s + r, q): the sum over the whole batch, taken tile by
  tile — associativity and commutativity of addition only. The eight write-backs tile the result array, which therefore
  ends holding, at (o, i),  weight (o, i) + rate · Σ_b max (out (b, o) − thr o) 0 · x (b, i).

  Everything is stated at a parameter V for the arrays as the region finds them.
-/
import proofs.«124577_j81003083202674_2_alg».proof.Proof.KernelIdealUpdBody
import proofs.«124577_j81003083202674_2_alg».proof.Proof.KernelIdealUpdPay
import proofs.«124577_j81003083202674_2_alg».proof.Proof.BlockSums
import Idealize.ShloMosaic.Lib.Pipeline.Value

noncomputable section

open scoped BigOperators

namespace Cert.KernelIdeal.UpdValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.UpdBody Cert.Plasticity

variable (V : (c : Dev nD) → (b : Ref sig .tc) → Buf (Elt Ideal) ((c : Thread nD τ).loc b))

/-! ## What the result array ends holding -/

/-- The arrays the region finds, as functions on their literal index types: the weights, -/
abbrev aW (c : Dev nD) : S4096x4096.Idx → EReal := V c main_arg1
/-- the first region's result (the layer's output), -/
abbrev aY (c : Dev nD) : S8192x4096.Idx → EReal := V c main_v2
/-- the row of new thresholds, -/
abbrev aT (c : Dev nD) : S1x4096.Idx → EReal := V c main_v11
/-- and the inputs. -/
abbrev aX (c : Dev nD) : S8192x4096.Idx → EReal := V c main_v0

/-- The blocks the body finds at point t, likewise: the inputs' tile, -/
abbrev bX (c : Dev nD) (t : Fin cfg1.N) : S256x4096.Idx → EReal := iblk1 V c 0 t
/-- the weights' tile, -/
abbrev bW (c : Dev nD) (t : Fin cfg1.N) : S512x4096.Idx → EReal := iblk1 V c 1 t
/-- the output's tile, -/
abbrev bY (c : Dev nD) (t : Fin cfg1.N) : S256x512.Idx → EReal := iblk1 V c 2 t
/-- and the thresholds' tile. -/
abbrev bT (c : Dev nD) (t : Fin cfg1.N) : S1x512.Idx → EReal := iblk1 V c 3 t

/-- The new weight from input i to unit o, of the arrays the region finds. -/
def g1 (c : Dev nD) (o i : Fin 4096) : EReal :=
  aW V c (ix2 o i) + rate * ∑ b : Fin 8192, max (aY V c (ix2 b o) - aT V c (ix2 (0 : Fin 1) o)) 0 * aX V c (ix2 b i)

/-- A float buffer's contents at the ideal values, as a function to the extended reals. -/
abbrev asE {S : Shape} (f : S.Idx → EReal) : S.Idx → EReal := f

/-- The same as an array: at (o, i), the weight plus the scaled sum over the batch of rectified activity times input. -/
def G1 (c : Dev nD) : S4096x4096.Idx → EReal :=
  fun i => asE (S := S4096x4096) (V c main_arg1) (ix2 (i 0) (i 1)) + rate * ∑ b : Fin 8192,
    max (asE (S := S8192x4096) (V c main_v2) (ix2 b (i 0)) - asE (S := S1x4096) (V c main_v11) (ix2 0 (i 0))) 0 * asE (S := S8192x4096) (V c main_v0) (ix2 b (i 1))

theorem G1_ix2 (c : Dev nD) (o i : Fin 4096) : G1 V c (ix2 o i) = g1 V c o i := rfl

/-! ## The index maps, decided once over the grid -/

theorem idx_facts : ∀ t : Fin cfg1.N,
    win1_0.index t (0 : Fin 2) = t.val % 32 ∧ win1_0.index t (1 : Fin 2) = 0
    ∧ win1_1.index t (0 : Fin 2) = t.val / 32 ∧ win1_1.index t (1 : Fin 2) = 0
    ∧ win1_2.index t (0 : Fin 2) = t.val % 32 ∧ win1_2.index t (1 : Fin 2) = t.val / 32
    ∧ win1_3.index t (0 : Fin 2) = 0 ∧ win1_3.index t (1 : Fin 2) = t.val / 32
    ∧ win1_4.index t (0 : Fin 2) = t.val / 32 ∧ win1_4.index t (1 : Fin 2) = 0 :=
  (by decide +kernel : ∀ t : Fin grid1.N, _)

theorem N1 : cfg1.N = 256 := N_1

/-! ## The blocks the body reads, in the arrays' coordinates -/

/-- The inputs' tile at a point of batch tile s: rows 256·s + r. -/
theorem blk0_apply (c : Dev nD) (t : Fin cfg1.N) (s : ℕ) (hs : t.val % 32 = s) (r : Fin 256) (k : Fin 4096)
    (hB : s * 256 + r.val < 8192) :
    bX V c t (ix2 r k) = aX V c (ix2 (⟨s * 256 + r.val, hB⟩ : Fin 8192) k) := by
  obtain ⟨e0, e1, -⟩ := idx_facts t
  show aX V c (((cfg1.win 0).blk t).view.emb (ix2 r k)) = _
  refine congrArg (aX V c) (funext fun a => Fin.ext ?_)
  match a with
  | ⟨0, _⟩ => show win1_0.index t (0 : Fin 2) * 256 + 1 * r.val = s * 256 + r.val; rw [e0, hs]; omega
  | ⟨1, _⟩ => show win1_0.index t (1 : Fin 2) * 4096 + 1 * k.val = k.val; rw [e1]; omega

/-- The weights' tile at a point of unit tile o': rows 512·o' + p. -/
theorem blk1_apply (c : Dev nD) (t : Fin cfg1.N) (o' : ℕ) (ho : t.val / 32 = o') (p : Fin 512) (q : Fin 4096)
    (hP : o' * 512 + p.val < 4096) :
    bW V c t (ix2 p q) = aW V c (ix2 (⟨o' * 512 + p.val, hP⟩ : Fin 4096) q) := by
  obtain ⟨-, -, e0, e1, -⟩ := idx_facts t
  show aW V c (((cfg1.win 1).blk t).view.emb (ix2 p q)) = _
  refine congrArg (aW V c) (funext fun a => Fin.ext ?_)
  match a with
  | ⟨0, _⟩ => show win1_1.index t (0 : Fin 2) * 512 + 1 * p.val = o' * 512 + p.val; rw [e0, ho]; omega
  | ⟨1, _⟩ => show win1_1.index t (1 : Fin 2) * 4096 + 1 * q.val = q.val; rw [e1]; omega

/-- The output's tile: rows 256·s + r, units 512·o' + p. -/
theorem blk2_apply (c : Dev nD) (t : Fin cfg1.N) (s o' : ℕ) (hs : t.val % 32 = s) (ho : t.val / 32 = o') (r : Fin 256)
    (p : Fin 512) (hB : s * 256 + r.val < 8192) (hP : o' * 512 + p.val < 4096) :
    bY V c t (ix2 r p) = aY V c (ix2 (⟨s * 256 + r.val, hB⟩ : Fin 8192) (⟨o' * 512 + p.val, hP⟩ : Fin 4096)) := by
  obtain ⟨-, -, -, -, e0, e1, -⟩ := idx_facts t
  show aY V c (((cfg1.win 2).blk t).view.emb (ix2 r p)) = _
  refine congrArg (aY V c) (funext fun a => Fin.ext ?_)
  match a with
  | ⟨0, _⟩ => show win1_2.index t (0 : Fin 2) * 256 + 1 * r.val = s * 256 + r.val; rw [e0, hs]; omega
  | ⟨1, _⟩ => show win1_2.index t (1 : Fin 2) * 512 + 1 * p.val = o' * 512 + p.val; rw [e1, ho]; omega

/-- The thresholds' tile: the row's entries 512·o' + p. -/
theorem blk3_apply (c : Dev nD) (t : Fin cfg1.N) (o' : ℕ) (ho : t.val / 32 = o') (u : Fin 1) (p : Fin 512)
    (hP : o' * 512 + p.val < 4096) :
    bT V c t (ix2 u p) = aT V c (ix2 (0 : Fin 1) (⟨o' * 512 + p.val, hP⟩ : Fin 4096)) := by
  obtain ⟨-, -, -, -, -, -, e0, e1, -⟩ := idx_facts t
  show aT V c (((cfg1.win 3).blk t).view.emb (ix2 u p)) = _
  refine congrArg (aT V c) (funext fun a => Fin.ext ?_)
  match a with
  | ⟨0, _⟩ => show win1_3.index t (0 : Fin 2) * 1 + 1 * u.val = 0; rw [e0]; omega
  | ⟨1, _⟩ => show win1_3.index t (1 : Fin 2) * 512 + 1 * p.val = o' * 512 + p.val; rw [e1, ho]; omega

/-! ## The scratch block at the last tile of a run: the fold over the run's 32 points, opened -/

/-- What point n adds to the scratch at an entry: the sum over the tile's rows of rectified activity times input (zero
    past the grid, where it is never used). -/
def tileTerm (c : Dev nD) (n : ℕ) (i : S512x4096.Idx) : EReal :=
  if h : n < cfg1.N then
    ∑ r : Fin 256, max (bY V c ⟨n, h⟩ (ix2 r (i 0)) - bT V c ⟨n, h⟩ (ix2 (0 : Fin 1) (i 0))) 0 * bX V c ⟨n, h⟩ (ix2 r (i 1))
  else 0

/-- The scratch after a first tile: the accumulation step on the zero block. -/
def resetAt (c : Dev nD) (n : ℕ) (h : n < cfg1.N) : S512x4096.Idx → EReal :=
  k1_pay2 (iblk1 V c 2 ⟨n, h⟩) (iblk1 V c 3 ⟨n, h⟩) (iblk1 V c 0 ⟨n, h⟩) (k1_pay1 (F := Ideal))

/-- The scratch after a later tile: the accumulation step on what the point before left. -/
def stepAt (c : Dev nD) (n : ℕ) (h : n < cfg1.N) (acc : S512x4096.Idx → EReal) : S512x4096.Idx → EReal :=
  k1_pay2 (iblk1 V c 2 ⟨n, h⟩) (iblk1 V c 3 ⟨n, h⟩) (iblk1 V c 0 ⟨n, h⟩) acc

theorem resetAt_apply (c : Dev nD) (n : ℕ) (h : n < cfg1.N) (i : S512x4096.Idx) :
    resetAt V c n h i = (fun _ => (0 : EReal)) i + tileTerm V c n i := by
  obtain ⟨p, q, rfl⟩ : ∃ (p : Fin 512) (q : Fin 4096), i = ix2 p q := ⟨i 0, i 1, eq_ix2 i⟩
  unfold resetAt tileTerm
  rw [dif_pos h]
  exact (pay2_apply _ _ _ _ p q).trans (congrArg (· + _) (pay1_apply p q))

theorem stepAt_apply (c : Dev nD) (n : ℕ) (h : n < cfg1.N) (acc : S512x4096.Idx → EReal) (i : S512x4096.Idx) :
    stepAt V c n h acc i = acc i + tileTerm V c n i := by
  obtain ⟨p, q, rfl⟩ : ∃ (p : Fin 512) (q : Fin 4096), i = ix2 p q := ⟨i 0, i 1, eq_ix2 i⟩
  unfold stepAt tileTerm
  rw [dif_pos h]
  exact pay2_apply _ _ _ acc p q

/-- The fold over a run of 32 points from b, at an entry: the 32 points' additions to zero. -/
theorem fold_apply (c : Dev nD) (b : ℕ) (hb : b + 31 < cfg1.N) (i : S512x4096.Idx) :
    Pipeline.accAt (resetAt V c) (stepAt V c) b 31 hb i = 0 + ∑ s ∈ Finset.range 32, tileTerm V c (b + s) i :=
  Pipeline.accAt_add_apply (resetAt V c) (stepAt V c) (fun _ => (0 : EReal)) (tileTerm V c) b 31
    (fun h i => resetAt_apply V c b h i) (fun n h acc i _ _ => stepAt_apply V c n h acc i) 31 le_rfl hb i

/-- At the last tile of a run the scratch holds, at every entry, the run's 32 additions. -/
theorem acc_last (c : Dev nD) (t : Fin cfg1.N) (ht : t.val % 32 = 31) (i : S512x4096.Idx) :
    accAt1 V c t.val t.isLt i = ∑ s ∈ Finset.range 32, tileTerm V c (32 * (t.val / 32) + s) i := by
  have hdm := Nat.div_add_mod t.val 32
  have hb : 32 * (t.val / 32) + 31 < cfg1.N := by have := t.isLt; omega
  have e := Pipeline.eq_accAt (accAt1 V c) 32 (resetAt V c) (stepAt V c)
    (fun n h hm => accAt1_first V c ⟨n, h⟩ hm) (fun n h hm => accAt1_later V c ⟨n + 1, h⟩ hm) (t.val / 32) 31 (by decide) hb
  have same : ∀ (u : ℕ) (hu : u < cfg1.N), u = t.val → accAt1 V c u hu = accAt1 V c t.val t.isLt :=
    fun u hu e => by subst e; rfl
  rw [← same _ hb (by omega), e, fold_apply, zero_add]

/-! ## The run's additions are the sum over the whole batch -/

/-- The addend of batch row β, for unit P and input q: rectified activity times input (zero past the batch, where it is
    never used). -/
def rowTerm (c : Dev nD) (P q : Fin 4096) (β : ℕ) : EReal :=
  if hβ : β < 8192 then
    max (aY V c (ix2 (⟨β, hβ⟩ : Fin 8192) P) - aT V c (ix2 (0 : Fin 1) P)) 0 * aX V c (ix2 (⟨β, hβ⟩ : Fin 8192) q)
  else 0

theorem rowTerm_lt (c : Dev nD) (P q : Fin 4096) (β : ℕ) (hβ : β < 8192) :
    rowTerm V c P q β
      = max (aY V c (ix2 (⟨β, hβ⟩ : Fin 8192) P) - aT V c (ix2 (0 : Fin 1) P)) 0 * aX V c (ix2 (⟨β, hβ⟩ : Fin 8192) q) :=
  dif_pos hβ

/-- At a point of unit tile o', the 32 tiles' additions at entry (p, q) are the sum over the batch of rectified activity
    of unit 512·o' + p times input q. -/
theorem run_sum (c : Dev nD) (o' : ℕ) (ho : o' < 8) (p : Fin 512) (q : Fin 4096) (hP : o' * 512 + p.val < 4096) :
    ∑ s ∈ Finset.range 32, tileTerm V c (32 * o' + s) (ix2 p q)
      = ∑ b : Fin 8192, max (aY V c (ix2 b (⟨o' * 512 + p.val, hP⟩ : Fin 4096)) - aT V c (ix2 (0 : Fin 1) (⟨o' * 512 + p.val, hP⟩ : Fin 4096))) 0
          * aX V c (ix2 b q) := by
  have hN : cfg1.N = 256 := N_1
  have hR : (∑ b : Fin 8192, max (aY V c (ix2 b (⟨o' * 512 + p.val, hP⟩ : Fin 4096)) - aT V c (ix2 (0 : Fin 1) (⟨o' * 512 + p.val, hP⟩ : Fin 4096))) 0
      * aX V c (ix2 b q)) = ∑ b : Fin 8192, rowTerm V c (⟨o' * 512 + p.val, hP⟩ : Fin 4096) q b.val :=
    Finset.sum_congr rfl fun b _ => (rowTerm_lt V c _ q b.val b.isLt).symm
  rw [hR, ← Cert.Lib.BlockSums.sum_range_blocks_32x256 (rowTerm V c (⟨o' * 512 + p.val, hP⟩ : Fin 4096) q)]
  refine Finset.sum_congr rfl fun s hs => ?_
  have hs32 : s < 32 := Finset.mem_range.mp hs
  have hn : 32 * o' + s < cfg1.N := by omega
  unfold tileTerm
  rw [dif_pos hn]
  refine Finset.sum_congr rfl fun r _ => ?_
  have hr : r.val < 256 := r.isLt
  have hB : s * 256 + r.val < 8192 := by omega
  have hmod : (⟨32 * o' + s, hn⟩ : Fin cfg1.N).val % 32 = s := by show (32 * o' + s) % 32 = s; omega
  have hdiv : (⟨32 * o' + s, hn⟩ : Fin cfg1.N).val / 32 = o' := by show (32 * o' + s) / 32 = o'; omega
  rw [blk2_apply V c _ s o' hmod hdiv r p hB hP, blk3_apply V c _ o' hdiv (0 : Fin 1) p hP, blk0_apply V c _ s hmod r q hB]
  exact (rowTerm_lt V c _ q _ hB).symm

/-! ## The block written back, and the array -/

/-- What the last tile of unit tile o' stores, at entry (p, q): the new weight from input q to unit 512·o' + p. -/
theorem out_last (c : Dev nD) (t : Fin cfg1.N) (ht : t.val % 32 = 31) (p : Fin 512) (q : Fin 4096)
    (hP : t.val / 32 * 512 + p.val < 4096) :
    outAt1 V c t (ix2 p q) = g1 V c (⟨t.val / 32 * 512 + p.val, hP⟩ : Fin 4096) q := by
  have hN : cfg1.N = 256 := N_1
  have ho : t.val / 32 < 8 := by have := t.isLt; omega
  unfold outAt1
  refine (pay3_apply _ _ p q).trans ?_
  unfold g1
  refine congrArg₂ (fun a s => a + rate * s) (blk1_apply V c t _ rfl p q hP) ?_
  refine (acc_last V c t ht (ix2 p q)).trans ?_
  exact run_sum V c (t.val / 32) ho p q hP

/-- An index of the result array is in point t's block iff each coordinate is in the block's range on its axis. -/
theorem mem_blk4 (t : Fin cfg1.N) (i : S4096x4096.Idx) :
    i ∈ ((cfg1.win 4).blk t).view.set ↔ ∀ a : Fin 2, win1_4.index t a * S512x4096.size a ≤ (i a).val
      ∧ (i a).val < win1_4.index t a * S512x4096.size a + S512x4096.size a := by
  show i ∈ ((View.whole main_v12).slice (win1_4.rect t)).set ↔ _
  rw [View.set_slice_whole, Rect.mem_set_unit]
  exact Iff.rfl

/-- WHAT A WRITING POINT WRITES BACK is its block of the array of new weights. -/
theorem flushed_eq (c : Dev nD) (t : Fin cfg1.N) (hf : (cfg1.win 4).flush t = true) :
    (dat1 V c).flushed 4 t = ((cfg1.win 4).blk t).view.read (Elt Ideal) (G1 V c) := by
  have ht : t.val % 32 = 31 := (flush1_4 t).mp hf
  have hN : cfg1.N = 256 := N_1
  obtain ⟨-, -, -, -, -, -, -, -, e0, e1⟩ := idx_facts t
  show (cfg1.win 4).cut (grid1.coords t) ((dat1 V c).after 4 t) = _
  rw [after1_4]
  funext j
  have hp : (j 0).val < 512 := (j 0).isLt
  have hq : (j 1).val < 4096 := (j 1).isLt
  have hP : t.val / 32 * 512 + (j 0).val < 4096 := by have := t.isLt; omega
  have e_in : (cfg1.win 4).xinj (grid1.coords t) j = ix2 (⟨(j 0).val, hp⟩ : Fin 512) (⟨(j 1).val, hq⟩ : Fin 4096) :=
    funext fun a => Fin.ext (by match a with | ⟨0, _⟩ => rfl | ⟨1, _⟩ => rfl)
  have e_out : ((cfg1.win 4).blk t).view.emb j
      = ix2 (⟨t.val / 32 * 512 + (j 0).val, hP⟩ : Fin 4096) (⟨(j 1).val, hq⟩ : Fin 4096) :=
    funext fun a => Fin.ext (by
      match a with
      | ⟨0, _⟩ => show win1_4.index t (0 : Fin 2) * 512 + 1 * (j 0).val = t.val / 32 * 512 + (j 0).val; rw [e0]; omega
      | ⟨1, _⟩ => show win1_4.index t (1 : Fin 2) * 4096 + 1 * (j 1).val = (j 1).val; rw [e1]; omega)
  show outAt1 V c t ((cfg1.win 4).xinj (grid1.coords t) j) = G1 V c (((cfg1.win 4).blk t).view.emb j)
  exact (congrArg (outAt1 V c t) e_in).trans ((out_last V c t ht _ _ hP).trans (congrArg (G1 V c) e_out).symm)

/-- The writing points' blocks tile the array: entry (o, i) lies in the block of the last tile of unit tile o / 512. -/
theorem cover (i : S4096x4096.Idx) :
    ∃ t : Fin cfg1.N, (cfg1.win 4).flush t = true ∧ i ∈ ((cfg1.win 4).blk t).view.set := by
  have hN : cfg1.N = 256 := N_1
  have h0 : (i 0).val < 4096 := (i 0).isLt
  have h1 : (i 1).val < 4096 := (i 1).isLt
  obtain ⟨t, ht⟩ : ∃ t : Fin cfg1.N, t.val = 32 * ((i 0).val / 512) + 31 := ⟨⟨32 * ((i 0).val / 512) + 31, by omega⟩, rfl⟩
  obtain ⟨-, -, -, -, -, -, -, -, e0, e1⟩ := idx_facts t
  refine ⟨t, (flush1_4 t).mpr (by omega), ?_⟩
  rw [mem_blk4]
  intro a
  match a with
  | ⟨0, _⟩ =>
    show win1_4.index t (0 : Fin 2) * 512 ≤ (i 0).val ∧ (i 0).val < win1_4.index t (0 : Fin 2) * 512 + 512
    rw [e0]; omega
  | ⟨1, _⟩ =>
    show win1_4.index t (1 : Fin 2) * 4096 ≤ (i 1).val ∧ (i 1).val < win1_4.index t (1 : Fin 2) * 4096 + 4096
    rw [e1]; omega

/-- THE RESULT ARRAY after the region: the new weights, of the arrays the region found. -/
theorem upd_final (c : Dev nD) : (dat1 V c).arrAt 4 cfg1.N = G1 V c :=
  (dat1 V c).arrAt_eq_of_cover 4 (G1 V c) (fun t hf => flushed_eq V c t hf) cover

end Cert.KernelIdeal.UpdValue

end
-- ==== Proof.KernelIdealResults.lean ====
import proofs.«124577_j81003083202674_2_alg».proof.Proof.KernelIdealReads
import proofs.«124577_j81003083202674_2_alg».proof.Proof.KernelIdealOutValue
import proofs.«124577_j81003083202674_2_alg».proof.Proof.KernelIdealUpdValue

noncomputable section

namespace Cert.KernelIdeal.Results

open Cert.KernelIdeal Cert.KernelIdeal.Gen Cert.KernelIdeal.OutBody Cert.KernelIdeal.UpdBody Cert.KernelIdeal.Whole Cert.KernelIdeal.Reads Cert.Plasticity
open Idealize.ShloMosaic Idealize.ShloMosaic.TcCoe Idealize.ShloMosaic.ValueIdx Idealize.SL.Sem
open Idealize.ShloMosaic.Pipeline (Dat)
open Cert.KernelIdeal.OutValue (asE)

/-! # The three results of the program at the ideal values, as the specification's arrays of the arguments -/

variable (m : (ℓ : Loc nD τ sig) → Buf (Elt Ideal) ℓ) (ρ : Dev nD → PrngReg) (c : Dev nD)

/-- The first region's output array is the activity `x·wᵀ` of the arguments: its two factors are the arguments' casts, which
    are the arguments. -/
theorem W2_v2 : (W2 m ρ c (Proc.devRef .tc main_v2) : SBatch.Idx → EReal) = outArr (aX m c) (aW m c) := by
  refine (W2_arr m ρ c 2).trans ((OutValue.out_final (V1 m ρ) c).trans ?_)
  funext i
  show (∑ k : Fin 4096, asE (S := S8192x4096) (V1 m ρ c main_v0) (ix2 (i 0) k) * asE (S := S4096x4096) (V1 m ρ c main_v1) (ix2 (i 1) k)) = _
  rw [show asE (S := S8192x4096) (V1 m ρ c main_v0) = aX m c from W1_v0 m ρ c, show asE (S := S4096x4096) (V1 m ρ c main_v1) = aW m c from W1_v1 m ρ c]; rfl

/-- The second region's output array is the updated weight: its four inputs are the batch, the weights, the activity and the
    new threshold as a row. -/
theorem W4_v12 : (W4 m ρ c (Proc.devRef .tc main_v12) : SWeight.Idx → EReal) = nwArr (aX m c) (aW m c) (aT m c) := by
  have h2 := W2_v2 m ρ c
  refine (W4_arr m ρ c 4).trans ((UpdValue.upd_final (V3 m ρ) c).trans ?_)
  funext i
  obtain ⟨p, q, rfl⟩ : ∃ (p : Fin 4096) (q : Fin 4096), i = ix2 p q := ⟨i 0, i 1, eq_ix2 i⟩
  show asE (S := S4096x4096) (V3 m ρ c main_arg1) (ix2 p q) + rate * ∑ b : Fin 8192,
      max (asE (S := S8192x4096) (V3 m ρ c main_v2) (ix2 b p) - asE (S := S1x4096) (V3 m ρ c main_v11) (ix2 0 p)) 0
        * asE (S := S8192x4096) (V3 m ρ c main_v0) (ix2 b q) = _
  rw [show asE (S := S4096x4096) (V3 m ρ c main_arg1) = aW m c from V3_arg1 m ρ c,
    show asE (S := S8192x4096) (V3 m ρ c main_v2) = outArr (aX m c) (aW m c) from V3_v2 m ρ c h2,
    show asE (S := S8192x4096) (V3 m ρ c main_v0) = aX m c from V3_v0 m ρ c,
    show asE (S := S1x4096) (V3 m ρ c main_v11) (ix2 0 p) = nthr (aX m c) (aW m c) (aT m c) p from V3_v11_ix2 m ρ c h2 0 p]
  rfl

/-- Every weakly fair execution terminates with the three results at the specification's arrays of the arguments, the
    arguments unchanged. -/
theorem run : θ_run (defs (F := Ideal)) (onTc (τ := τ) (main (F := Ideal))) ⟨m, fun _ => 0, ρ⟩ (fun r => ∀ c : Dev nD,
      r.2.mem ((c.tc : Thread nD τ).loc main_v2) = outArr (aX m c) (aW m c)
      ∧ r.2.mem ((c.tc : Thread nD τ).loc main_v10) = nthrArr (aX m c) (aW m c) (aT m c)
      ∧ r.2.mem ((c.tc : Thread nD τ).loc main_v12) = nwArr (aX m c) (aW m c) (aT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c main_v2 (by decide)).trans (W4_v2 m ρ c (W2_v2 m ρ c)),
     (h c main_v10 (by decide)).trans (W4_v10 m ρ c (W2_v2 m ρ c)),
     (h c main_v12 (by decide)).trans (W4_v12 m ρ c),
     (h c main_arg0 (by decide)).trans (W4_main_arg0 m ρ c),
     (h c main_arg1 (by decide)).trans (W4_main_arg1 m ρ c),
     (h c main_arg2 (by decide)).trans (W4_main_arg2 m ρ c)⟩) (run_all (F := Ideal) m ρ)

end Cert.KernelIdeal.Results

end
-- ==== Proof.lean ====
/- The certificate's proof: three frames, the (empty) idealization ledger, and the equality of results at the ideal values.

   The program computes, from a batch `x`, a weight matrix `w` and a threshold vector, the activity `out = x·wᵀ`, the
   threshold moved towards the squared mean activity, and the weight moved by `rate · postᵀ·x` where `post` is the activity
   rectified at the new threshold. The kernel does the two products tile by tile: the first accumulates in its output block
   over eight slices of the contracted axis, the second in a scratch block over thirty-two tiles of the batch. Each frame is
   the whole program's run (two stretches of host operations, two regions), read at the three argument arrays; the equality
   reads the same run at the three results, where the tilewise sums are the reference's whole sums because addition of
   extended reals is commutative and associative (no finiteness is needed, and none is used). -/
import proofs.«124577_j81003083202674_2_alg».proof.Defs
import proofs.«124577_j81003083202674_2_alg».proof.Proof.Gen.Kernel
import proofs.«124577_j81003083202674_2_alg».proof.Proof.Gen.KernelIdeal
import proofs.«124577_j81003083202674_2_alg».proof.Proof.Gen.ReferenceIdeal
import proofs.«124577_j81003083202674_2_alg».proof.Proof.Gen.Pre_finite_inputs
import proofs.«124577_j81003083202674_2_alg».proof.Proof.KernelWhole
import proofs.«124577_j81003083202674_2_alg».proof.Proof.KernelIdealWhole
import proofs.«124577_j81003083202674_2_alg».proof.Proof.RefIsSpec
import proofs.«124577_j81003083202674_2_alg».proof.Proof.KernelIdealResults
import Idealize.ShloMosaic.Adequacy
import Idealize.ShloMosaic.Init

noncomputable section

namespace Cert.Proof

open Idealize.ShloMosaic Idealize.SL.Sem

/-- The word-level program runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Whole.frame (F := Bits) m ρ
/-- So does the program read at the ideal values. -/
theorem frame_ki : Cert.frame_KernelIdeal (hKernelIdeal := Cert.KernelIdeal.Gen.facts) (hPre_finite_inputs := Cert.Pre_finite_inputs.Gen.facts) :=
  fun m ρ _ => Cert.KernelIdeal.Whole.frame (F := Ideal) m ρ
/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => Cert.Plasticity.ref_frame m ρ

/-- From memories agreeing on the arguments both programs end with the specification's three arrays of those arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, Cert.KernelIdeal.Results.run m ρ, ?_⟩
  refine (θ_run Cert.ReferenceIdeal.defs _ _).mono (fun _ h c => ?_) (Cert.Plasticity.ref_run m' ρ')
  obtain ⟨h1, h2, h3, h4⟩ := h c
  obtain ⟨a0, a1, a2⟩ := hagree c
  refine ⟨?_, ?_, ?_, h4⟩
  · rw [h1, a0, a1]
  · rw [h2, a0, a1, a2]
  · rw [h3, a0, a1, a2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
